-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x200x64 : Shape := ⟨3, ![4096, 200, 64]⟩
abbrev S4096x64x64 : Shape := ⟨3, ![4096, 64, 64]⟩
abbrev S64x64 : Shape := ⟨2, ![64, 64]⟩
abbrev S_ : Shape := ⟨0, ![]⟩

class Facts : Prop where
  bcast_S_S4096x200x64 : S_.BroadcastsInDim S4096x200x64 (![] : Fin 0 → Fin S4096x200x64.rank)
  reducesTo_S4096x200x64_S_d0_1_2 : S4096x200x64.ReducesTo [0, 1, 2] S_
  h_S_ : 0 < S_.numel
  bcast_S_S4096x64x64 : S_.BroadcastsInDim S4096x64x64 (![] : Fin 0 → Fin S4096x64x64.rank)
  reducesTo_S4096x64x64_S_d0_1_2 : S4096x64x64.ReducesTo [0, 1, 2] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  main_v23

def fn {F : FTy → Type} [FloatOps F] (main_arg0 : FVec F S4096x200x64 .f32) (main_arg1 : FVec F S4096x64x64 .f32) (main_arg2 : FVec F S64x64 .f32) (main_arg3 : FVec F S64x64 .f32) (main_arg4 : FVec F S64x64 .f32) : IVec S_ 1 :=
  let main_v0 : FVec F S4096x200x64 .f32 := Host.absf main_arg0
  let main_cst : FVec F S_ .f32 := constant S_ .f32 0x7F800000#32
  let main_v1 : FVec F S4096x200x64 .f32 := broadcastInDim S4096x200x64 ![] bcast_S_S4096x200x64 main_cst
  let main_v2 : IVec S4096x200x64 1 := cmpf .olt main_v0 main_v1
  let main_c : IVec S_ 1 := constantI S_ 1 1#1
  let main_v3 : IVec S_ 1 := (fun x v => Host.reduce IntOp.andi x v reducesTo_S4096x200x64_S_d0_1_2 h_S_) main_v2 main_c
  let main_v4 : FVec F S4096x64x64 .f32 := Host.absf main_arg1
  let main_cst_0 : FVec F S_ .f32 := constant S_ .f32 0x7F800000#32
  let main_v5 : FVec F S4096x64x64 .f32 := broadcastInDim S4096x64x64 ![] bcast_S_S4096x64x64 main_cst_0
  let main_v6 : IVec S4096x64x64 1 := cmpf .olt main_v4 main_v5
  let main_c_1 : IVec S_ 1 := constantI S_ 1 1#1
  let main_v7 : IVec S_ 1 := (fun x v => Host.reduce IntOp.andi x v reducesTo_S4096x64x64_S_d0_1_2 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_v13 main_v16
-- ==== Kernel.lean ====
abbrev S4096x200x64 : Shape := ⟨3, ![4096, 200, 64]⟩
abbrev S4096x64x64 : Shape := ⟨3, ![4096, 64, 64]⟩
abbrev S64x64 : Shape := ⟨2, ![64, 64]⟩
abbrev S128x64 : Shape := ⟨2, ![128, 64]⟩
abbrev S64x200x64 : Shape := ⟨3, ![64, 200, 64]⟩
abbrev S64x64x64 : Shape := ⟨3, ![64, 64, 64]⟩
abbrev S8x200x64 : Shape := ⟨3, ![8, 200, 64]⟩
abbrev S8x64x64 : Shape := ⟨3, ![8, 64, 64]⟩
abbrev S1600x64 : Shape := ⟨2, ![1600, 64]⟩
abbrev S512x64 : Shape := ⟨2, ![512, 64]⟩
abbrev S1600x128 : Shape := ⟨2, ![1600, 128]⟩
abbrev S8x200x128 : Shape := ⟨3, ![8, 200, 128]⟩
abbrev S8x200 : Shape := ⟨2, ![8, 200]⟩
abbrev S8x200x1 : Shape := ⟨3, ![8, 200, 1]⟩

abbrev nBuf : Space → Nat
  | .hbm => 7
  | .vmem => 8
  | .smem => 0
  | _ => 0

abbrev bufTy : (tb : Table) → Fin (tcTables nBuf tb) → BufTy
  | .hbm, ⟨0, _⟩ => ⟨S4096x200x64, .f32⟩
  | .hbm, ⟨1, _⟩ => ⟨S4096x64x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S128x64, .f32⟩
  | .hbm, ⟨6, _⟩ => ⟨S4096x200x64, .f32⟩
  | .local _ .vmem, ⟨0, _⟩ => ⟨S64x200x64, .f32⟩
  | .local _ .vmem, ⟨1, _⟩ => ⟨S64x200x64, .f32⟩
  | .local _ .vmem, ⟨2, _⟩ => ⟨S64x64x64, .f32⟩
  | .local _ .vmem, ⟨3, _⟩ => ⟨S64x64x64, .f32⟩
  | .local _ .vmem, ⟨4, _⟩ => ⟨S128x64, .f32⟩
  | .local _ .vmem, ⟨5, _⟩ => ⟨S64x64, .f32⟩
  | .local _ .vmem, ⟨6, _⟩ => ⟨S64x200x64, .f32⟩
  | .local _ .vmem, ⟨7, _⟩ => ⟨S64x200x64, .f32⟩
  | _, _ => ⟨S4096x200x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c8_i32 : BitVec 32 := 8#32
  let v5 : BitVec 32 := Scalar.addi c0_i32 c8_i32
  let c1_i32 : BitVec 32 := 1#32
  ⟨c0_i32, v5, c1_i32⟩
def k0_mult1 (k0_t1 : Fin k0_t1_loop.trips) : BitVec 32 :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v6 : BitVec 32 := Scalar.muli arg6 c1_i32_4
  let v7 : BitVec 32 := Scalar.addi c0_i32_5 v6
  let c8_i32_6 : BitVec 32 := 8#32
  let v8 : BitVec 32 := Scalar.muli v7 c8_i32_6
  v8
def k0_off1 (k0_t1 : Fin k0_t1_loop.trips) : Fin 3 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v6 : BitVec 32 := Scalar.muli arg6 c1_i32_4
  let v7 : BitVec 32 := Scalar.addi c0_i32_5 v6
  let c8_i32_6 : BitVec 32 := 8#32
  let v8 : BitVec 32 := Scalar.muli v7 c8_i32_6
  let v9 : BitVec 32 := v8
  let v10 : Index := Scalar.indexCast v9
  let c0_7 : Index := 0#32
  let c0_8 : Index := 0#32
  ![v10.toNat, 0, 0]
def k0_off2 (k0_t1 : Fin k0_t1_loop.trips) : Fin 3 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v6 : BitVec 32 := Scalar.muli arg6 c1_i32_4
  let v7 : BitVec 32 := Scalar.addi c0_i32_5 v6
  let c8_i32_6 : BitVec 32 := 8#32
  let v8 : BitVec 32 := Scalar.muli v7 c8_i32_6
  let v9 : BitVec 32 := v8
  let v13 : Index := Scalar.indexCast v9
  let c0_9 : Index := 0#32
  let c0_10 : Index := 0#32
  ![v13.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x200x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x200x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  concatenates_S64x64_S64x64_S128x64_d0 : Shape.Concatenates [S64x64, S64x64] S128x64 0
  inb_S128x64_S128x64_0_0 : ∀ a, (![0, 0] : Fin 2 → Nat) a + S128x64.size a ≤ S128x64.size a
  h_S128x64 : 0 < S128x64.numel
  shapeCasts_S128x64_S128x64 : S128x64.ShapeCasts S128x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  h_S8x200x64 : 0 < S8x200x64.numel
  h_S8x64x64 : 0 < S8x64x64.numel
  shapeCasts_S8x200x64_S1600x64 : S8x200x64.ShapeCasts S1600x64
  shapeCasts_S8x64x64_S512x64 : S8x64x64.ShapeCasts S512x64
  shapeCasts_S1600x128_S8x200x128 : S1600x128.ShapeCasts S8x200x128
  shapeCasts_S512x64_S8x64x64 : S512x64.ShapeCasts S8x64x64
  slices_S8x200x128_o0_0_0_S8x200x64 : S8x200x128.Slices ![0, 0, 0] S8x200x64
  slices_S8x200x128_o0_0_64_S8x200x64 : S8x200x128.Slices ![0, 0, 64] S8x200x64
  reduces_S8x200x64_S8x200 : S8x200x64.Reduces [2] S8x200
  shapeCasts_S8x200_S8x200x1 : S8x200.ShapeCasts S8x200x1
  broadcasts_S8x200x1_S8x200x64 : S8x200x1.Broadcasts S8x200x64
  dot_S1600x64_S128x64_S1600x128_1_1_0_0_n_n_wf : DotDims.WF S1600x64 S128x64 S1600x128 [1] [1] [0] [0] [] []
  dot_S512x64_S64x64_S512x64_1_1_0_0_n_n_wf : DotDims.WF S512x64 S64x64 S512x64 [1] [1] [0] [0] [] []
  dot_S8x200x64_S8x64x64_S8x200x64_2_2_1_1_0_0_wf : DotDims.WF S8x200x64 S8x64x64 S8x200x64 [2] [2] [1] [1] [0] [0]
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S8x200x64.size a ≤ S64x200x64.size a
  k0_off2_inb : ∀ k0_t1 : Fin k0_t1_loop.trips, ∀ a, (k0_off2 k0_t1) a + S8x64x64.size a ≤ S64x64x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x200x64.size a ≤ S4096x200x64.size a
  hwx0_0 : ∀ i : grid0.Coords, EltTy.bits .f32 = 32 ∨ (Rect.block (s := S4096x200x64) S64x200x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x64x64.size a ≤ S4096x64x64.size a
  hwx0_1 : ∀ i : grid0.Coords, EltTy.bits .f32 = 32 ∨ (Rect.block (s := S4096x64x64) S64x64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x200x64.size a ≤ S4096x200x64.size a
  hwx0_4 : ∀ i : grid0.Coords, EltTy.bits .f32 = 32 ∨ (Rect.block (s := S4096x200x64) S64x200x64.size (cc0_transform_4 i) (hinb0_4 i)).WholeWords (EltTy.packing .f32)

variable [Facts₀]

def dot_S1600x64_S128x64_S1600x128_1_1_0_0_n_n : DotDims S1600x64 S128x64 S1600x128 where
  lhsContracting := [1]
  rhsContracting := [1]
  lhsNonContracting := [0]
  rhsNonContracting := [0]
  lhsBatch := []
  rhsBatch := []
  wf := dot_S1600x64_S128x64_S1600x128_1_1_0_0_n_n_wf
def dot_S512x64_S64x64_S512x64_1_1_0_0_n_n : DotDims S512x64 S64x64 S512x64 where
  lhsContracting := [1]
  rhsContracting := [1]
  lhsNonContracting := [0]
  rhsNonContracting := [0]
  lhsBatch := []
  rhsBatch := []
  wf := dot_S512x64_S64x64_S512x64_1_1_0_0_n_n_wf
def dot_S8x200x64_S8x64x64_S8x200x64_2_2_1_1_0_0 : DotDims S8x200x64 S8x64x64 S8x200x64 where
  lhsContracting := [2]
  rhsContracting := [2]
  lhsNonContracting := [1]
  rhsNonContracting := [1]
  lhsBatch := [0]
  rhsBatch := [0]
  wf := dot_S8x200x64_S8x64x64_S8x200x64_2_2_1_1_0_0_wf

abbrev win0_0 : Pipeline.Window sig grid0 :=
  Pipeline.Window.ofSpec (Memref.whole main_arg0) S64x200x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S64x200x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x200x64 : Shape := ⟨3, ![4096, 200, 64]⟩
abbrev S4096x64x64 : Shape := ⟨3, ![4096, 64, 64]⟩
abbrev S64x64 : Shape := ⟨2, ![64, 64]⟩
abbrev S_ : Shape := ⟨0, ![]⟩
abbrev S4096x200 : Shape := ⟨2, ![4096, 200]⟩
abbrev S4096x200x1 : Shape := ⟨3, ![4096, 200, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x200x64, .f32⟩
  | .hbm, ⟨1, _⟩ => ⟨S4096x64x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S4096x200x64, .f32⟩
  | .hbm, ⟨6, _⟩ => ⟨S4096x64x64, .f32⟩
  | .hbm, ⟨7, _⟩ => ⟨S4096x200x64, .f32⟩
  | .hbm, ⟨8, _⟩ => ⟨S4096x200x64, .f32⟩
  | .hbm, ⟨9, _⟩ => ⟨S_, .f32⟩
  | .hbm, ⟨10, _⟩ => ⟨S4096x200x64, .f32⟩
  | .hbm, ⟨11, _⟩ => ⟨S4096x200x64, .f32⟩
  | .hbm, ⟨12, _⟩ => ⟨S_, .f32⟩
  | .hbm, ⟨13, _⟩ => ⟨S4096x200, .f32⟩
  | .hbm, ⟨14, _⟩ => ⟨S_, .f32⟩
  | .hbm, ⟨15, _⟩ => ⟨S4096x200, .f32⟩
  | .hbm, ⟨16, _⟩ => ⟨S4096x200, .f32⟩
  | .hbm, ⟨17, _⟩ => ⟨S4096x200x1, .f32⟩
  | .hbm, ⟨18, _⟩ => ⟨S4096x200x64, .f32⟩
  | .hbm, ⟨19, _⟩ => ⟨S4096x200x64, .f32⟩
  | .hbm, ⟨20, _⟩ => ⟨S4096x200x64, .f32⟩
  | .hbm, ⟨21, _⟩ => ⟨S_, .f32⟩
  | .hbm, ⟨22, _⟩ => ⟨S4096x200, .f32⟩
  | .hbm, ⟨23, _⟩ => ⟨S4096x200x1, .f32⟩
  | .hbm, ⟨24, _⟩ => ⟨S4096x200x64, .f32⟩
  | .hbm, ⟨25, _⟩ => ⟨S4096x200x64, .f32⟩
  | .hbm, ⟨26, _⟩ => ⟨S4096x200x64, .f32⟩
  | _, _ => ⟨S4096x200x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S_S4096x200x64 : S_.BroadcastsInDim S4096x200x64 (![] : Fin 0 → Fin S4096x200x64.rank)
  reducesTo_S4096x200x64_S4096x200_d2 : S4096x200x64.ReducesTo [2] S4096x200
  h_S_ : 0 < S_.numel
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S4096x200x1_S4096x200x64_0_1_2 : S4096x200x1.BroadcastsInDim S4096x200x64 (![0, 1, 2] : Fin 3 → Fin S4096x200x64.rank)
  dot_S4096x200x64_S64x64_S4096x200x64_2_1_01_0_n_n_wf : DotDims.WF S4096x200x64 S64x64 S4096x200x64 [2] [1] [0, 1] [0] [] []
  dot_S4096x64x64_S64x64_S4096x64x64_2_1_01_0_n_n_wf : DotDims.WF S4096x64x64 S64x64 S4096x64x64 [2] [1] [0, 1] [0] [] []
  dot_S4096x200x64_S4096x64x64_S4096x200x64_2_2_1_1_0_0_wf : DotDims.WF S4096x200x64 S4096x64x64 S4096x200x64 [2] [2] [1] [1] [0] [0]

variable [Facts₀]

def dot_S4096x200x64_S64x64_S4096x200x64_2_1_01_0_n_n : DotDims S4096x200x64 S64x64 S4096x200x64 where
  lhsContracting := [2]
  rhsContracting := [1]
  lhsNonContracting := [0, 1]
  rhsNonContracting := [0]
  lhsBatch := []
  rhsBatch := []
  wf := dot_S4096x200x64_S64x64_S4096x200x64_2_1_01_0_n_n_wf
def dot_S4096x64x64_S64x64_S4096x64x64_2_1_01_0_n_n : DotDims S4096x64x64 S64x64 S4096x64x64 where
  lhsContracting := [2]
  rhsContracting := [1]
  lhsNonContracting := [0, 1]
  rhsNonContracting := [0]
  lhsBatch := []
  rhsBatch := []
  wf := dot_S4096x64x64_S64x64_S4096x64x64_2_1_01_0_n_n_wf
def dot_S4096x200x64_S4096x64x64_S4096x200x64_2_2_1_1_0_0 : DotDims S4096x200x64 S4096x64x64 S4096x200x64 where
  lhsContracting := [2]
  rhsContracting := [2]
  lhsNonContracting := [1]
  rhsNonContracting := [1]
  lhsBatch := [0]
  rhsBatch := [0]
  wf := dot_S4096x200x64_S4096x64x64_S4096x200x64_2_2_1_1_0_0_wf

class Facts : Prop extends Facts₀ where

variable [Facts]
-- ==== Proof.BlockPieces.lean ====
/-
  What the body leaves in the output block of one grid point. The body walks its block of 64 batch rows in eight
  chunks of eight rows: trip `k` loads rows `8k … 8k+7` of the query block and of the key block, computes the
  chunk's result from them and the two resident weights, and stores it to rows `8k … 8k+7` of the output block.
  The eight stores tile the block, and every store's payload is the SAME function of the block index restricted
  to its rectangle: at block row `y₀` the chunk `y₀ / 8` read at its row `y₀ % 8`. So the block ends holding
  that function (`blockOut`), whatever order the trips ran in.
-/
import proofs.«119425_j17239998726507_2_alg».proof.Proof.Gen.KernelIdeal.Frame
import Idealize.ShloMosaic.Lib.Pipeline.Value
import Idealize.ShloMosaic.Lib.WholeRead
import Idealize.ShloMosaic.Lib.ValueIdx

set_option maxRecDepth 16384

noncomputable section

namespace Cert.KernelIdeal.Chunks

open Cert.KernelIdeal Cert.KernelIdeal.Gen Idealize.ShloMosaic Idealize.ShloMosaic.TcCoe Idealize.SL.Sem
open Idealize.ShloMosaic.ValueIdx

variable {F : FTy → Type} [FloatOps F]

/-- The loop makes eight trips. -/
theorem trips_eq : k0_t1_loop.trips = 8 := by decide +kernel

/-- Rows `8k … 8k+7` of the query block (and of the output block), -/
abbrev rowsQ (k : Fin k0_t1_loop.trips) : Rect S64x200x64 := Rect.unit (k0_off1 k) S8x200x64.size (k0_off1_inb k)
/-- and of the key block. -/
abbrev rowsK (k : Fin k0_t1_loop.trips) : Rect S64x64x64 := Rect.unit (k0_off2 k) S8x64x64.size (k0_off2_inb k)

/-- Chunk `k`'s result: the body's arithmetic on rows `8k … 8k+7` of the query and key blocks and the weights. -/
def chunkOut (x0 : Vec F S64x200x64 .f32) (x1 : Vec F S64x64x64 .f32) (v0 : Vec F S128x64 .f32) (v3 : Vec F S64x64 .f32)
    (k : Fin k0_t1_loop.trips) : FVec F S8x200x64 .f32 :=
  k0_pay1 v0 v3 (View.ld x0 (rowsQ k)) (View.ld x1 (rowsK k))

/-- The chunk a block row belongs to, -/
def chunkOf (y : S64x200x64.Idx) : Fin k0_t1_loop.trips :=
  ⟨(y 0).val / 8, by have h : (y 0).val < 64 := (y 0).isLt; rw [trips_eq]; omega⟩
/-- and its place inside that chunk. -/
def inChunk (y : S64x200x64.Idx) : S8x200x64.Idx :=
  ix3 (⟨(y 0).val % 8, Nat.mod_lt _ (by decide)⟩ : Fin 8) (⟨(y 1).val, (y 1).isLt⟩ : Fin 200) (⟨(y 2).val, (y 2).isLt⟩ : Fin 64)

/-- What the block ends holding: at each index, its chunk's result at its place in the chunk. -/
def blockOut (x0 : Vec F S64x200x64 .f32) (x1 : Vec F S64x64x64 .f32) (v0 : Vec F S128x64 .f32) (v3 : Vec F S64x64 .f32) :
    S64x200x64.Idx → Elt F .f32 :=
  fun y => chunkOut x0 x1 v0 v3 (chunkOf y) (inChunk y)

/-- Row `x₀` of chunk `k` is block row `8k + x₀`: it belongs to chunk `k`, -/
theorem chunkOf_emb (k : Fin k0_t1_loop.trips) (x : (rowsQ k).shape.Idx) : chunkOf ((rowsQ k).emb x) = k := by
  apply Fin.ext
  show ((rowsQ k).emb x 0).val / 8 = k.val
  rw [Rect.emb_apply]
  have hx : (x 0).val < 8 := (x 0).isLt
  show (k0_off1 k 0 + 1 * (x 0).val) / 8 = k.val
  rw [k0_off1_eq k]
  show (8 * k.val + 1 * (x 0).val) / 8 = k.val
  omega

/-- at place `x`. -/
theorem inChunk_emb (k : Fin k0_t1_loop.trips) (x : (rowsQ k).shape.Idx) : inChunk ((rowsQ k).emb x) = x := by
  funext a
  apply Fin.ext
  have hx : (x 0).val < 8 := (x 0).isLt
  match a with
  | ⟨0, _⟩ =>
    show ((rowsQ k).emb x 0).val % 8 = (x 0).val
    rw [Rect.emb_apply]
    show (k0_off1 k 0 + 1 * (x 0).val) % 8 = (x 0).val
    rw [k0_off1_eq k]
    show (8 * k.val + 1 * (x 0).val) % 8 = (x 0).val
    omega
  | ⟨1, _⟩ =>
    show ((rowsQ k).emb x 1).val = (x 1).val
    rw [Rect.emb_apply]
    show k0_off1 k 1 + 1 * (x 1).val = (x 1).val
    rw [k0_off1_eq k]
    show 0 + 1 * (x 1).val = (x 1).val
    omega
  | ⟨2, _⟩ =>
    show ((rowsQ k).emb x 2).val = (x 2).val
    rw [Rect.emb_apply]
    show k0_off1 k 2 + 1 * (x 2).val = (x 2).val
    rw [k0_off1_eq k]
    show 0 + 1 * (x 2).val = (x 2).val
    omega

section Pieces

variable (𝒱 : Variants) (c : Dev nD) (bd : Option 𝒱.V) (i : grid0.Coords)
  (arg1 : Memref sig .tc .vmem S64x200x64 .f32) (harg1 : arg1.IsWhole) (arg2 : Memref sig .tc .vmem S64x64x64 .f32) (harg2 : arg2.IsWhole)
  (arg3 : Memref sig .tc .vmem S128x64 .f32) (harg3 : arg3.IsWhole) (arg4 : Memref sig .tc .vmem S64x64 .f32) (harg4 : arg4.IsWhole)
  (arg5 : Memref sig .tc .vmem S64x200x64 .f32) (harg5 : arg5.IsWhole)
  (x0 : Vec F S64x200x64 .f32) (x1 : Vec F S64x64x64 .f32) (v0 : Vec F S128x64 .f32) (v3 : Vec F S64x64 .f32)

/-- Trip `k` makes one store: chunk `k`'s result through rows `8k … 8k+7`. -/
theorem tripL_eq (k : Fin k0_t1_loop.trips) :
    tripL_k0_t1 (F := F) 𝒱 c bd i arg1 harg1 arg2 harg2 arg3 harg3 arg4 harg4 arg5 harg5 v0 v3 (harg1.unread x0) (harg2.unread x1) k
      = [⟨rowsQ k, chunkOut x0 x1 v0 v3 k⟩] := by
  unfold tripL_k0_t1 trip_k0_t1
  dsimp only
  have e1 : View.readAt (Elt F) arg1.view (rowsQ k).toLoadRect (harg1.unread x0) = View.ld x0 (rowsQ k) :=
    funext fun x => harg1.readAt_unread x0 _ x
  have e2 : View.readAt (Elt F) arg2.view (rowsK k).toLoadRect (harg2.unread x1) = View.ld x1 (rowsK k) :=
    funext fun x => harg2.readAt_unread x1 _ x
  unfold chunkOut
  rw [← e1, ← e2]

/-- Every store of the trips before `n` holds `blockOut` restricted to its rectangle. -/
theorem pieces_agree : ∀ (n : ℕ),
    ∀ p ∈ pb_k0_t1 (F := F) 𝒱 c bd i arg1 harg1 arg2 harg2 arg3 harg3 arg4 harg4 arg5 harg5 v0 v3 (harg1.unread x0) (harg2.unread x1) n,
      ∀ x : p.1.shape.Idx, p.2 x = blockOut x0 x1 v0 v3 (p.1.emb x)
  | 0, p, hp, _ => by rw [pb_k0_t1.eq_1] at hp; exact absurd hp List.not_mem_nil
  | n + 1, p, hp, x => by
    rw [pb_k0_t1.eq_2] at hp
    unfold pb_k0_t1Step at hp
    by_cases h : n < k0_t1_loop.trips
    · rw [dif_pos h, tripL_eq, List.singleton_append, List.mem_cons] at hp
      rcases hp with rfl | hp
      · show chunkOut x0 x1 v0 v3 ⟨n, h⟩ x = chunkOut x0 x1 v0 v3 (chunkOf ((rowsQ ⟨n, h⟩).emb x)) (inChunk ((rowsQ ⟨n, h⟩).emb x))
        rw [chunkOf_emb, inChunk_emb]
      · exact pieces_agree n p hp x
    · rw [dif_neg h] at hp
      exact pieces_agree n p hp x

end Pieces

/-- THE BLOCK AFTER THE BODY: the eight stores cover it, each with `blockOut` on its rectangle, so it reads `blockOut` of the
    point's query block, key block and weights. -/
theorem out_eq (c : Dev nD) (i : grid0.Coords) (arg1 : Memref sig .tc .vmem S64x200x64 .f32) (harg1 : arg1.IsWhole) (arg2 : Memref sig .tc .vmem S64x64x64 .f32) (harg2 : arg2.IsWhole) (arg3 : Memref sig .tc .vmem S128x64 .f32) (harg3 : arg3.IsWhole) (arg4 : Memref sig .tc .vmem S64x64 .f32) (harg4 : arg4.IsWhole) (arg5 : Memref sig .tc .vmem S64x200x64 .f32) (harg5 : arg5.IsWhole)
    (x0 : Vec F S64x200x64 .f32) (x1 : Vec F S64x64x64 .f32) (x2 : Vec F S128x64 .f32) (x3 : Vec F S64x64 .f32) :
    out0_A_4 c i arg1 harg1 arg2 harg2 arg3 harg3 arg4 harg4 arg5 harg5 x0 x1 x2 x3 = blockOut x0 x1 x2 x3 := by
  unfold out0_A_4
  rw [View.read_writes_junk_eq_canon]
  funext y
  refine View.canon_apply_of_pieces (blockOut x0 x1 x2 x3) _ ?_ y (cover0_A_4 c i arg1 harg1 arg2 harg2 arg3 harg3 arg4 harg4 arg5 harg5 x0 x1 x2 x3 y)
  unfold kernelRun0_A
  dsimp only
  have hz : (![0, 0] : Fin 2 → Nat) = fun _ => 0 := funext fun a => by fin_cases a <;> rfl
  have e2 : View.readAt (Elt F) arg3.view (Rect.unit (s := S128x64) ![0, 0] S128x64.size inb_S128x64_S128x64_0_0).toLoadRect (harg3.unread x2) = x2 :=
    (funext fun x => harg3.readAt_unread x2 _ x).trans (View.ld_unit_zero hz _ x2)
  have e3 : View.readAt (Elt F) arg4.view (Rect.unit (s := S64x64) ![0, 0] S64x64.size inb_S64x64_S64x64_0_0).toLoadRect (harg4.unread x3) = x3 :=
    (funext fun x => harg4.readAt_unread x3 _ x).trans (View.ld_unit_zero hz _ x3)
  rw [e2, e3]
  exact pieces_agree Variants.none c none i arg1 harg1 arg2 harg2 arg3 harg3 arg4 harg4 arg5 harg5 x0 x1 x2 x3 _

end Cert.KernelIdeal.Chunks

end
-- ==== Proof.Spec.lean ====
/-
  The function both programs compute, one query row at a time. A query row `q` (64 features) is projected by the
  query weight and by the value weight; each of the 64 key rows of the same batch entry is projected by the key
  weight. Key `m`'s logit is the inner product of the two projections times the constant `c`. The 64 logits are
  turned into softmax weights — shifted by their maximum, exponentiated, divided by their sum —, and lane `h` of the
  result is the value projection's lane `h` times the softmax weight of key `h` (the key count equals the lane
  count). Everything is on the extended reals; no law beyond unfolding is used, so nothing here asks for finiteness.
-/
import Idealize.ShloMosaic.PureOps.Ideal
import Idealize.ShloMosaic.Lib.ValueIdx
import Mathlib.Data.Finset.Fold

noncomputable section

namespace Cert.Attn

open Idealize.ShloMosaic Idealize.ShloMosaic.ValueIdx

/-- A row times a weight matrix stored `[lane, feature]`: lane `h` is the sum over features. -/
def proj (x : Fin 64 → EReal) (W : Fin 64 → Fin 64 → EReal) (h : Fin 64) : EReal :=
  ∑ e : Fin 64, x e * W h e

/-- Key `m`'s logit for query row `q`: the projections' inner product, scaled by 1/8. -/
def logit (q : Fin 64 → EReal) (kk : Fin 64 → Fin 64 → EReal) (Qw Kw : Fin 64 → Fin 64 → EReal) (m : Fin 64) : EReal :=
  (∑ h : Fin 64, proj q Qw h * proj (kk m) Kw h) * Ideal.ofBits .f32 0x3E000000#32

/-- The largest of 64 numbers, folded from minus infinity. -/
def rowMax (lg : Fin 64 → EReal) : EReal :=
  (Finset.univ : Finset (Fin 64)).fold max (Ideal.ofBits .f32 0xFF800000#32) lg

/-- Lane `h` of the result row: the value projection gated by the softmax weight of key `h`. -/
def gated (q : Fin 64 → EReal) (kk : Fin 64 → Fin 64 → EReal) (Qw Kw Vw : Fin 64 → Fin 64 → EReal) (h : Fin 64) : EReal :=
  proj q Vw h *
    Ideal.div (Ideal.exp (logit q kk Qw Kw h - rowMax (logit q kk Qw Kw)))
      (∑ m : Fin 64, Ideal.exp (logit q kk Qw Kw m - rowMax (logit q kk Qw Kw)))

/-- Folding `max` from a start value never ends below it, so one more `max` with the start value changes nothing. -/
theorem max_start_fold (a : EReal) (f : Fin 64 → EReal) :
    max a ((Finset.univ : Finset (Fin 64)).fold max a f) = (Finset.univ : Finset (Fin 64)).fold max a f :=
  max_eq_right ((Finset.le_fold_max a).mpr (Or.inl le_rfl))

/-- THE WHOLE RESULT ARRAY as one function of the five argument arrays: element `(B, n, h)` is the gated attention of query
    row `(B, n)` against key matrix `B`. -/
def result (a0 : (⟨3, ![4096, 200, 64]⟩ : Shape).Idx → EReal) (a1 : (⟨3, ![4096, 64, 64]⟩ : Shape).Idx → EReal)
    (a2 a3 a4 : (⟨2, ![64, 64]⟩ : Shape).Idx → EReal) : (⟨3, ![4096, 200, 64]⟩ : Shape).Idx → EReal :=
  fun i => gated (fun e => a0 (ix3 (i 0 : Fin 4096) (i 1 : Fin 200) e)) (fun mm e => a1 (ix3 (i 0 : Fin 4096) mm e))
    (fun h e => a2 (ix2 h e)) (fun h e => a3 (ix2 h e)) (fun h e => a4 (ix2 h e)) (i 2 : Fin 64)

end Cert.Attn

end
-- ==== Proof.LibProjLayout.lean ====
/-
  Layout operations and two matrix products read at an index given by coordinates, for a body that flattens a block of
  `a` matrices into one tall matrix, multiplies, and cuts the result back: a row-major split of the leading axis
  (`[n, c] → [a, b, c]` with `n = a · b`), a run of lanes cut out of the last axis of a rank-3 array, a product of two
  matrices contracted over the LAST axis of both (`[m, k] · [n, k]ᵀ`) into a zero accumulator, and the same product
  batched over a shared leading axis (`[a, m, k] · [a, n, k]ᵀ`), each as the sum over the contracted coordinate.
-/
import Idealize.ShloMosaic.Lib.ValueIdx
import Idealize.ShloMosaic.Lib.Pipeline.Value
import Idealize.ShloMosaic.PureOps.Ideal.Laws

noncomputable section

namespace Cert.ProjLayout

open Idealize.ShloMosaic Idealize.ShloMosaic.ValueIdx

variable {α : Type}

/-! ## The leading axis split, and lanes cut out -/

/-- An `[n, c]` array cast to `[a, b, c]` with `n = a · b` reads, at `(i, j, d)`, the operand at `(r, d)` with
    `r = i · b + j`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (d : Fin c) (r : Fin n)
    (hr : r.val = i.val * b + j.val) :
    shapeCast ⟨3, ![a, b, c]⟩ x h (ix3 i j d) = x (ix2 r d) :=
  shapeCast_apply x h _ _ (by
    rw [Shape.rowMajor_val_three, Shape.rowMajor_val_two]
    show r.val * c + d.val = (i.val * b + j.val) * c + d.val
    rw [hr])

/-- Lanes `o … o + c - 1` cut out of the last axis of an `[a, b, c']` array read, at `(i, j, d)`, the operand at
    `(i, j, q)` with `q = o + d`. -/
theorem laneSlice_apply {a b c c' o : ℕ} (x : (⟨3, ![a, b, c']⟩ : Shape).Idx → α)
    (h : (⟨3, ![a, b, c']⟩ : Shape).Slices ![0, 0, o] ⟨3, ![a, b, c]⟩) (i : Fin a) (j : Fin b) (d : Fin c) (q : Fin c')
    (hq : q.val = o + d.val) :
    extractStridedSlice ⟨3, ![a, b, c]⟩ ![0, 0, o] x h (ix3 i j d) = x (ix3 i j q) :=
  extractStridedSlice_apply _ x h _ _ fun ax => by
    match ax with
    | ⟨0, _⟩ => show i.val = 0 + i.val; omega
    | ⟨1, _⟩ => show j.val = 0 + j.val; omega
    | ⟨2, _⟩ => show q.val = o + d.val; exact hq

/-! ## Products contracted over the last axis of both operands -/

/-- For dimension numbers that contract the columns of both operands (`hl0` … `hr1`: the operand indices at an output
    index and a contraction position, read off the numbers), an `[m, k] · [n, k]ᵀ` product into the zero splat reads, at
    `(r, c)`, the sum over `f` of left `(r, f)` times right `(c, f)`. -/
theorem matmul_zero_rows_apply {m k n : ℕ} {φ₁ φ₂ : FTy}
    (D : DotDims ⟨2, ![m, k]⟩ ⟨2, ![n, k]⟩ ⟨2, ![m, n]⟩) (hrank : D.contr.rank = 1)
    (hsize : D.contr.size ⟨0, by omega⟩ = k)
    (hl0 : ∀ (j : (⟨2, ![m, n]⟩ : Shape).Idx) (q : D.contr.Idx), (D.lhsIdx j q 0).val = (j 0).val)
    (hl1 : ∀ (j : (⟨2, ![m, n]⟩ : Shape).Idx) (q : D.contr.Idx), (D.lhsIdx j q 1).val = (q ⟨0, by omega⟩).val)
    (hr0 : ∀ (j : (⟨2, ![m, n]⟩ : Shape).Idx) (q : D.contr.Idx), (D.rhsIdx j q 0).val = (j 1).val)
    (hr1 : ∀ (j : (⟨2, ![m, n]⟩ : Shape).Idx) (q : D.contr.Idx), (D.rhsIdx j q 1).val = (q ⟨0, by omega⟩).val)
    (prec : Option ContractPrecision) (lhs : FVec Ideal ⟨2, ![m, k]⟩ φ₁) (rhs : FVec Ideal ⟨2, ![n, k]⟩ φ₂)
    (r : Fin m) (c : Fin n) :
    matmul D prec lhs rhs (constant (F := Ideal) ⟨2, ![m, n]⟩ .f32 0x00000000#32) (ix2 r c)
      = ∑ f : Fin k, lhs (ix2 r f) * rhs (ix2 c f) := by
  refine (Ideal.matmul_constant_zero_apply D prec lhs rhs (ix2 r c)).trans ?_
  rw [← Equiv.sum_comp (contrEquiv1 D k hrank hsize).symm]
  refine Finset.sum_congr rfl fun f _ => ?_
  have hf := contrEquiv1_symm_val D k hrank hsize f
  have el : D.lhsIdx (ix2 r c) ((contrEquiv1 D k hrank hsize).symm f) = ix2 r f := funext fun ax => Fin.ext (by
    match ax with
    | ⟨0, _⟩ => exact hl0 _ _
    | ⟨1, _⟩ => exact (hl1 _ _).trans hf)
  have er : D.rhsIdx (ix2 r c) ((contrEquiv1 D k hrank hsize).symm f) = ix2 c f := funext fun ax => Fin.ext (by
    match ax with
    | ⟨0, _⟩ => exact hr0 _ _
    | ⟨1, _⟩ => exact (hr1 _ _).trans hf)
  rw [el, er]

/-- The same product batched over a shared leading axis: `[a, m, k] · [a, n, k]ᵀ` into the zero splat reads, at
    `(b, r, c)`, the sum over `f` of left `(b, r, f)` times right `(b, c, f)`. -/
theorem batchMatmul_zero_rows_apply {a m k n : ℕ} {φ₁ φ₂ : FTy}
    (D : DotDims ⟨3, ![a, m, k]⟩ ⟨3, ![a, n, k]⟩ ⟨3, ![a, m, n]⟩) (hrank : D.contr.rank = 1)
    (hsize : D.contr.size ⟨0, by omega⟩ = k)
    (hl0 : ∀ (j : (⟨3, ![a, m, n]⟩ : Shape).Idx) (q : D.contr.Idx), (D.lhsIdx j q 0).val = (j 0).val)
    (hl1 : ∀ (j : (⟨3, ![a, m, n]⟩ : Shape).Idx) (q : D.contr.Idx), (D.lhsIdx j q 1).val = (j 1).val)
    (hl2 : ∀ (j : (⟨3, ![a, m, n]⟩ : Shape).Idx) (q : D.contr.Idx), (D.lhsIdx j q 2).val = (q ⟨0, by omega⟩).val)
    (hr0 : ∀ (j : (⟨3, ![a, m, n]⟩ : Shape).Idx) (q : D.contr.Idx), (D.rhsIdx j q 0).val = (j 0).val)
    (hr1 : ∀ (j : (⟨3, ![a, m, n]⟩ : Shape).Idx) (q : D.contr.Idx), (D.rhsIdx j q 1).val = (j 2).val)
    (hr2 : ∀ (j : (⟨3, ![a, m, n]⟩ : Shape).Idx) (q : D.contr.Idx), (D.rhsIdx j q 2).val = (q ⟨0, by omega⟩).val)
    (prec : Option ContractPrecision) (lhs : FVec Ideal ⟨3, ![a, m, k]⟩ φ₁) (rhs : FVec Ideal ⟨3, ![a, n, k]⟩ φ₂)
    (b : Fin a) (r : Fin m) (c : Fin n) :
    matmul D prec lhs rhs (constant (F := Ideal) ⟨3, ![a, m, n]⟩ .f32 0x00000000#32) (ix3 b r c)
      = ∑ f : Fin k, lhs (ix3 b r f) * rhs (ix3 b c f) := by
  refine (Ideal.matmul_constant_zero_apply D prec lhs rhs (ix3 b r c)).trans ?_
  rw [← Equiv.sum_comp (contrEquiv1 D k hrank hsize).symm]
  refine Finset.sum_congr rfl fun f _ => ?_
  have hf := contrEquiv1_symm_val D k hrank hsize f
  have el : D.lhsIdx (ix3 b r c) ((contrEquiv1 D k hrank hsize).symm f) = ix3 b r f := funext fun ax => Fin.ext (by
    match ax with
    | ⟨0, _⟩ => exact hl0 _ _
    | ⟨1, _⟩ => exact hl1 _ _
    | ⟨2, _⟩ => exact (hl2 _ _).trans hf)
  have er : D.rhsIdx (ix3 b r c) ((contrEquiv1 D k hrank hsize).symm f) = ix3 b c f := funext fun ax => Fin.ext (by
    match ax with
    | ⟨0, _⟩ => exact hr0 _ _
    | ⟨1, _⟩ => exact hr1 _ _
    | ⟨2, _⟩ => exact (hr2 _ _).trans hf)
  rw [el, er]

end Cert.ProjLayout

end
-- ==== Proof.LibKeepdimsLayout.lean ====
/-
  Layout operations, lane sums and a plain two-axis matrix product read at an index given by coordinates, for the
  keepdims shapes a pairwise network meets: a trailing or middle unit axis added by a shape cast, two leading unit axes
  added or dropped, two leading axes merged into one and a trailing axis split in two (both row-major), a broadcast
  along one or two unit axes of a rank-3 array, a sum over the first axis of a matrix and over the last axis of a
  rank-3 array, and a matrix product into a zero accumulator as the sum over the contracted coordinate.
-/
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayLayout

open Idealize.ShloMosaic Idealize.ShloMosaic.ValueIdx

variable {α : Type}

/-! ## Shape casts that add or drop unit axes -/

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, c]` array cast to `[a, 1, c]` reads, at `(i, u, d)`, the operand at `(i, d)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (d : Fin c) :
    shapeCast ⟨3, ![a, 1, c]⟩ x h (ix3 i u d) = x (ix2 i d) :=
  shapeCast_apply x h _ _ (by
    have hu : u.val = 0 := by omega
    rw [Shape.rowMajor_val_three, Shape.rowMajor_val_two]
    show i.val * c + d.val = (i.val * 1 + u.val) * c + d.val
    rw [hu, Nat.mul_one, Nat.add_zero])

/-- A vector `[c]` cast to `[1, 1, c]` reads, at `(u, v, d)`, the operand at `d`. -/
theorem shapeCast_c_11c_apply {c : ℕ} (x : (⟨1, ![c]⟩ : Shape).Idx → α)
    (h : (⟨1, ![c]⟩ : Shape).ShapeCasts ⟨3, ![1, 1, c]⟩) (u v : Fin 1) (d : Fin c) :
    shapeCast ⟨3, ![1, 1, c]⟩ x h (ix3 u v d) = x (ix1 d) :=
  shapeCast_apply x h _ _ (by
    have hu : u.val = 0 := by omega
    have hv : v.val = 0 := by omega
    rw [Shape.rowMajor_val_three, Shape.rowMajor_val_one]
    show d.val = (u.val * 1 + v.val) * c + d.val
    simp [hu, hv])

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp [hu, hv])

/-! ## Row-major merges and splits -/

/-- An `[a, b, c]` array cast to `[n, c]` with the two leading axes merged reads, at `(r, d)` with `r = i * b + j`,
    the operand at `(i, j, d)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (d : Fin c) (r : Fin n)
    (hr : r.val = i.val * b + j.val) :
    shapeCast ⟨2, ![n, c]⟩ x h (ix2 r d) = x (ix3 i j d) :=
  shapeCast_apply x h _ _ (by
    rw [Shape.rowMajor_val_three, Shape.rowMajor_val_two]
    show (i.val * b + j.val) * c + d.val = r.val * c + d.val
    rw [hr])

/-- An `[n, c]` array cast to `[a, m]` with `n = a * b` rows regrouped `b` to a row, so `m = b * c`, reads, at
    `(i, q)` with `q = j * c + o`, the operand at `(r, o)` with `r = i * b + j`. -/
theorem shapeCast_nc_am_apply {a b c n m : ℕ} (x : (⟨2, ![n, c]⟩ : Shape).Idx → α)
    (h : (⟨2, ![n, c]⟩ : Shape).ShapeCasts ⟨2, ![a, m]⟩) (hm : m = b * c) (i : Fin a) (j : Fin b) (o : Fin c)
    (r : Fin n) (q : Fin m) (hr : r.val = i.val * b + j.val) (hq : q.val = j.val * c + o.val) :
    shapeCast ⟨2, ![a, m]⟩ x h (ix2 i q) = x (ix2 r o) :=
  shapeCast_apply x h _ _ (by
    rw [Shape.rowMajor_val_two, Shape.rowMajor_val_two]
    show r.val * c + o.val = i.val * m + q.val
    rw [hr, hq, hm]
    ring)

/-! ## Broadcasts of a rank-3 array along its unit axes -/

/-- An `[a, 1, c]` array broadcast to `[a, b, c]` reads, at `(i, j, d)`, the operand at `(i, 0, d)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (d : Fin c) :
    broadcastTo ⟨3, ![a, b, c]⟩ v h (ix3 i j d) = v (ix3 i (0 : Fin 1) d) := by
  refine broadcastTo_apply v h (ix3 i j d) (ix3 i (0 : Fin 1) d) fun ax => ?_
  match ax with
  | ⟨0, _⟩ =>
    show i.val = if a = 1 then 0 else i.val
    split
    · have := i.isLt; omega
    · rfl
  | ⟨1, _⟩ => rfl
  | ⟨2, _⟩ =>
    show d.val = if c = 1 then 0 else d.val
    split
    · have := d.isLt; omega
    · rfl

/-- A `[1, b, c]` array broadcast to `[a, b, c]` reads, at `(i, j, d)`, the operand at `(0, j, d)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (d : Fin c) :
    broadcastTo ⟨3, ![a, b, c]⟩ v h (ix3 i j d) = v (ix3 (0 : Fin 1) j d) := by
  refine broadcastTo_apply v h (ix3 i j d) (ix3 (0 : Fin 1) j d) fun ax => ?_
  match ax with
  | ⟨0, _⟩ => rfl
  | ⟨1, _⟩ =>
    show j.val = if b = 1 then 0 else j.val
    split
    · have := j.isLt; omega
    · rfl
  | ⟨2, _⟩ =>
    show d.val = if c = 1 then 0 else d.val
    split
    · have := d.isLt; omega
    · rfl

/-- A `[1, 1, c]` array broadcast to `[a, b, c]` reads, at `(i, j, d)`, the operand at `(0, 0, d)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (d : Fin c) :
    broadcastTo ⟨3, ![a, b, c]⟩ v h (ix3 i j d) = v (ix3 (0 : Fin 1) (0 : Fin 1) d) := by
  refine broadcastTo_apply v h (ix3 i j d) (ix3 (0 : Fin 1) (0 : Fin 1) d) fun ax => ?_
  match ax with
  | ⟨0, _⟩ => rfl
  | ⟨1, _⟩ => rfl
  | ⟨2, _⟩ =>
    show d.val = if c = 1 then 0 else d.val
    split
    · have := d.isLt; omega
    · rfl

/-- An `[a, b, 1]` array broadcast to `[a, b, c]` reads, at `(i, j, d)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (d : Fin c) :
    broadcastTo ⟨3, ![a, b, c]⟩ v h (ix3 i j d) = v (ix3 i j (0 : Fin 1)) := by
  refine broadcastTo_apply v h (ix3 i j d) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-! ## Sums over one axis -/

/-- The sum of an `[a, c]` matrix over its rows reads, at `f`, the sum over `r` of the matrix at `(r, f)`. -/
theorem rowSum_apply {a c : ℕ} (src : FVec Ideal ⟨2, ![a, c]⟩ .f32)
    (h : (⟨2, ![a, c]⟩ : Shape).Reduces [0] ⟨1, ![c]⟩) (hφ : FKind.Formats .f32)
    (hacc : (0x00000000#32 : BitVec 32) = 0x00000000#32) (f : Fin c) :
    multiReduction .add [0] ⟨1, ![c]⟩ src 0x00000000#32 h hφ hacc (ix1 f) = ∑ r : Fin a, src (ix2 r f) := by
  refine (Ideal.multiReduction_add_single src 0x00000000#32 h hφ hacc (ix1 f)).trans ?_
  refine Finset.sum_congr rfl fun r _ => congrArg src (funext fun ax => Fin.ext ?_)
  match ax with
  | ⟨0, _⟩ => rfl
  | ⟨1, _⟩ => rfl

/-- The sum of an `[a, b, c]` array over its last axis reads, at `(i, j)`, the sum over `d` of the array at
    `(i, j, d)`. -/
theorem laneSum_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (i : Fin a) (j : Fin b) :
    multiReduction .add [2] ⟨2, ![a, b]⟩ src 0x00000000#32 h hφ hacc (ix2 i j) = ∑ d : Fin c, src (ix3 i j d) := by
  refine (Ideal.multiReduction_add_single src 0x00000000#32 h hφ hacc (ix2 i j)).trans ?_
  refine Finset.sum_congr rfl fun d _ => congrArg src (funext fun ax => Fin.ext ?_)
  match ax with
  | ⟨0, _⟩ => rfl
  | ⟨1, _⟩ => rfl
  | ⟨2, _⟩ => rfl

/-! ## A plain matrix product into a zero accumulator -/

/-- For dimension numbers that contract the left operand's columns with the right operand's rows (`hl0` … `hr1`: the
    operand indices at an output index and a contraction position, read off the numbers), an `[m, k] · [k, n]`
    product into the zero splat reads, at `(r, c)`, the sum over `f` of left `(r, f)` times right `(f, c)`. -/
theorem matmul_zero_ix2_apply {m k n : ℕ} {φ₁ φ₂ : FTy}
    (D : DotDims ⟨2, ![m, k]⟩ ⟨2, ![k, n]⟩ ⟨2, ![m, n]⟩) (hrank : D.contr.rank = 1)
    (hsize : D.contr.size ⟨0, by omega⟩ = k)
    (hl0 : ∀ (j : (⟨2, ![m, n]⟩ : Shape).Idx) (q : D.contr.Idx), (D.lhsIdx j q 0).val = (j 0).val)
    (hl1 : ∀ (j : (⟨2, ![m, n]⟩ : Shape).Idx) (q : D.contr.Idx), (D.lhsIdx j q 1).val = (q ⟨0, by omega⟩).val)
    (hr0 : ∀ (j : (⟨2, ![m, n]⟩ : Shape).Idx) (q : D.contr.Idx), (D.rhsIdx j q 0).val = (q ⟨0, by omega⟩).val)
    (hr1 : ∀ (j : (⟨2, ![m, n]⟩ : Shape).Idx) (q : D.contr.Idx), (D.rhsIdx j q 1).val = (j 1).val)
    (prec : Option ContractPrecision) (lhs : FVec Ideal ⟨2, ![m, k]⟩ φ₁) (rhs : FVec Ideal ⟨2, ![k, n]⟩ φ₂)
    (r : Fin m) (c : Fin n) :
    matmul D prec lhs rhs (constant (F := Ideal) ⟨2, ![m, n]⟩ .f32 0x00000000#32) (ix2 r c)
      = ∑ f : Fin k, lhs (ix2 r f) * rhs (ix2 f c) := by
  refine (Ideal.matmul_constant_zero_apply D prec lhs rhs (ix2 r c)).trans ?_
  rw [← Equiv.sum_comp (contrEquiv1 D k hrank hsize).symm]
  refine Finset.sum_congr rfl fun f _ => ?_
  have hf := contrEquiv1_symm_val D k hrank hsize f
  have el : D.lhsIdx (ix2 r c) ((contrEquiv1 D k hrank hsize).symm f) = ix2 r f := funext fun ax => Fin.ext (by
    match ax with
    | ⟨0, _⟩ => exact hl0 _ _
    | ⟨1, _⟩ => exact (hl1 _ _).trans hf)
  have er : D.rhsIdx (ix2 r c) ((contrEquiv1 D k hrank hsize).symm f) = ix2 f c := funext fun ax => Fin.ext (by
    match ax with
    | ⟨0, _⟩ => exact (hr0 _ _).trans hf
    | ⟨1, _⟩ => exact hr1 _ _)
  rw [el, er]

end Cert.KernelIdeal.PayLayout

end
-- ==== Proof.LibHeadLayout.lean ====
/-
  Layout operations and a row maximum read at an index given by coordinates, for arrays whose last axis is a run of
  `b` groups of `c` lanes: the last axis split in two by a shape cast (`[a, b·c] → [a, b, c]`, row-major), the last
  two axes merged (`[a, b, c] → [a, b·c]`), the first two axes of a rank-3 array exchanged by a transpose, and the
  maximum over the last axis of a rank-3 array — the vector unit's and the host's — as the fold of `max` over that
  axis's coordinates.
-/
import Idealize.ShloMosaic.Lib.ValueIdx
import Idealize.ShloMosaic.Lib.Pipeline.Value
import Idealize.ShloMosaic.PureOps.Ideal.Laws

noncomputable section

namespace Cert.HeadLayout

open Idealize.ShloMosaic Idealize.ShloMosaic.ValueIdx

variable {α : Type}

/-! ## The last axis split and merged -/

/-- An `[a, m]` array with `m = b · c` cast to `[a, b, c]` reads, at `(i, j, d)`, the operand at `(i, q)` with
    `q = j · c + d`. -/
theorem shapeCast_am_abc_apply {a b c m : ℕ} (x : (⟨2, ![a, m]⟩ : Shape).Idx → α)
    (h : (⟨2, ![a, m]⟩ : Shape).ShapeCasts ⟨3, ![a, b, c]⟩) (hm : m = b * c) (i : Fin a) (j : Fin b) (d : Fin c)
    (q : Fin m) (hq : q.val = j.val * c + d.val) :
    shapeCast ⟨3, ![a, b, c]⟩ x h (ix3 i j d) = x (ix2 i q) :=
  shapeCast_apply x h _ _ (by
    rw [Shape.rowMajor_val_three, Shape.rowMajor_val_two]
    show i.val * m + q.val = (i.val * b + j.val) * c + d.val
    rw [hq, hm]
    ring)

/-- An `[a, b, c]` array cast to `[a, m]` with `m = b · c` reads, at `(i, q)` with `q = j · c + d`, the operand at
    `(i, j, d)`. -/
theorem shapeCast_abc_am_apply {a b c m : ℕ} (x : (⟨3, ![a, b, c]⟩ : Shape).Idx → α)
    (h : (⟨3, ![a, b, c]⟩ : Shape).ShapeCasts ⟨2, ![a, m]⟩) (hm : m = b * c) (i : Fin a) (q : Fin m) (j : Fin b)
    (d : Fin c) (hq : q.val = j.val * c + d.val) :
    shapeCast ⟨2, ![a, m]⟩ x h (ix2 i q) = x (ix3 i j d) :=
  shapeCast_apply x h _ _ (by
    rw [Shape.rowMajor_val_three, Shape.rowMajor_val_two]
    show (i.val * b + j.val) * c + d.val = i.val * m + q.val
    rw [hq, hm]
    ring)

/-! ## The first two axes exchanged -/

/-- An `[a, b, c]` array transposed by the permutation `[1, 0, 2]` reads, at `(j, i, d)`, the operand at
    `(i, j, d)`. -/
theorem transpose_ix3_102_apply {a b c : ℕ} (x : (⟨3, ![a, b, c]⟩ : Shape).Idx → α)
    (h : (⟨3, ![a, b, c]⟩ : Shape).Transposes [1, 0, 2] ⟨3, ![b, a, c]⟩) (j : Fin b) (i : Fin a) (d : Fin c) :
    transpose ⟨3, ![b, a, c]⟩ [1, 0, 2] x h (ix3 j i d) = x (ix3 i j d) :=
  transpose_apply _ x h _ _ fun e => match e with | ⟨0, _⟩ => rfl | ⟨1, _⟩ => rfl | ⟨2, _⟩ => rfl

/-! ## The maximum over the last axis -/

/-- The vector unit's maximum of an `[a, b, c]` array over its last axis reads, at `(i, j)`, the fold of `max` from
    `-∞` (the accumulator's pattern) over `d` of the array at `(i, j, d)`. -/
theorem laneMax_apply {a b c : ℕ} (src : FVec Ideal ⟨3, ![a, b, c]⟩ .f32)
    (h : (⟨3, ![a, b, c]⟩ : Shape).Reduces [2] ⟨2, ![a, b]⟩) (hφ : FKind.Formats .f32)
    (hacc : (0xFF800000#32 : BitVec 32) = 0xFF800000#32) (i : Fin a) (j : Fin b) :
    multiReduction .maximumf [2] ⟨2, ![a, b]⟩ src 0xFF800000#32 h hφ hacc (ix2 i j)
      = (Finset.univ : Finset (Fin c)).fold max (Ideal.ofBits .f32 0xFF800000#32) (fun d => src (ix3 i j d)) := by
  refine (Ideal.multiReduction_maximumf_single src 0xFF800000#32 h hφ hacc (ix2 i j)).trans ?_
  exact congrArg (fun f => (Finset.univ : Finset (Fin c)).fold max (Ideal.ofBits .f32 0xFF800000#32) f)
    (funext fun d => congrArg src (funext fun ax => Fin.ext (by
      match ax with
      | ⟨0, _⟩ => rfl
      | ⟨1, _⟩ => rfl
      | ⟨2, _⟩ => rfl)))

/-- The host's maximum of an `[a, b, c]` array over its last axis reads, at `(i, j)`, the fold of `max` from the
    initial value over `d` of the array at `(i, j, d)`. -/
theorem hostLaneMax_apply {a b c : ℕ} {u : Shape} (x : FVec Ideal ⟨3, ![a, b, c]⟩ .f32) (init : u.Idx → Ideal .f32)
    (h' : (⟨3, ![a, b, c]⟩ : Shape).ReducesTo [2] ⟨2, ![a, b]⟩) (h : (⟨3, ![a, b, c]⟩ : Shape).Reduces [2] ⟨2, ![a, b]⟩)
    (hu : 0 < u.numel) (i : Fin a) (j : Fin b) :
    Host.reduce (FloatOps.maximumf (F := Ideal) (φ := .f32)) x init h' hu (ix2 i j)
      = (Finset.univ : Finset (Fin c)).fold max (init (Shape.Idx.first hu)) (fun d => x (ix3 i j d)) := by
  refine (Host.reduce_eq_fold_single (FloatOps.maximumf (F := Ideal) (φ := .f32)) x init h' h hu (ix2 i j)).trans ?_
  exact congrArg (fun f => (Finset.univ : Finset (Fin c)).fold max (init (Shape.Idx.first hu)) f)
    (funext fun d => congrArg x (funext fun ax => Fin.ext (by
      match ax with
      | ⟨0, _⟩ => rfl
      | ⟨1, _⟩ => rfl
      | ⟨2, _⟩ => rfl)))

end Cert.HeadLayout

end
-- ==== Proof.Payload.lean ====
/-
  The body's arithmetic on one chunk of eight batch entries, read at one element. The chunk's eight query matrices
  are stacked into one `[1600, 64]` matrix and multiplied by the stacked weight `[128, 64]` (query weight on top of
  value weight), so lanes `0 … 63` of the product are the query projections and lanes `64 … 127` the value
  projections; the eight key matrices, stacked to `[512, 64]`, are multiplied by the key weight. Cut back into eight
  matrices each, the projections give the logits by a product batched over the eight entries; the rest is the
  softmax over a row's 64 logits and the gate. At entry `b`, query row `n`, lane `h` this is `Attn.gated` of row
  `n` of query matrix `b`, key matrix `b`, and the three weights. The format changes to bf16 are the identity here.
-/
import proofs.«119425_j17239998726507_2_alg».proof.Proof.Gen.KernelIdeal.Skeleton
import proofs.«119425_j17239998726507_2_alg».proof.Proof.Spec
import proofs.«119425_j17239998726507_2_alg».proof.Proof.LibProjLayout
import proofs.«119425_j17239998726507_2_alg».proof.Proof.LibKeepdimsLayout
import proofs.«119425_j17239998726507_2_alg».proof.Proof.LibHeadLayout

noncomputable section

namespace Cert.KernelIdeal.Payload

open Cert.KernelIdeal Cert.KernelIdeal.Gen Idealize.ShloMosaic Idealize.ShloMosaic.ValueIdx
open Cert.Attn Cert.ProjLayout Cert.KernelIdeal.PayLayout Cert.HeadLayout

/-! ## The three products' operand indices, read off their dimension numbers -/

theorem qv_l0 (j : S1600x128.Idx) (q : dot_S1600x64_S128x64_S1600x128_1_1_0_0_n_n.contr.Idx) :
    (dot_S1600x64_S128x64_S1600x128_1_1_0_0_n_n.lhsIdx j q 0).val = (j 0).val := by
  unfold DotDims.lhsIdx
  rw [dif_neg (show ¬(0 : Fin S1600x64.rank) ∈ dot_S1600x64_S128x64_S1600x128_1_1_0_0_n_n.lhsBatch by decide), dif_pos (show (0 : Fin S1600x64.rank) ∈ dot_S1600x64_S128x64_S1600x128_1_1_0_0_n_n.lhsNonContracting by decide)]
  rfl
theorem qv_l1 (j : S1600x128.Idx) (q : dot_S1600x64_S128x64_S1600x128_1_1_0_0_n_n.contr.Idx) :
    (dot_S1600x64_S128x64_S1600x128_1_1_0_0_n_n.lhsIdx j q 1).val = (q ⟨0, by decide⟩).val :=
  dot_S1600x64_S128x64_S1600x128_1_1_0_0_n_n.lhsIdx_val_of_single rfl j q
theorem qv_r0 (j : S1600x128.Idx) (q : dot_S1600x64_S128x64_S1600x128_1_1_0_0_n_n.contr.Idx) :
    (dot_S1600x64_S128x64_S1600x128_1_1_0_0_n_n.rhsIdx j q 0).val = (j 1).val := by
  unfold DotDims.rhsIdx
  rw [dif_neg (show ¬(0 : Fin S128x64.rank) ∈ dot_S1600x64_S128x64_S1600x128_1_1_0_0_n_n.rhsBatch by decide), dif_pos (show (0 : Fin S128x64.rank) ∈ dot_S1600x64_S128x64_S1600x128_1_1_0_0_n_n.rhsNonContracting by decide)]
  rfl
theorem qv_r1 (j : S1600x128.Idx) (q : dot_S1600x64_S128x64_S1600x128_1_1_0_0_n_n.contr.Idx) :
    (dot_S1600x64_S128x64_S1600x128_1_1_0_0_n_n.rhsIdx j q 1).val = (q ⟨0, by decide⟩).val :=
  dot_S1600x64_S128x64_S1600x128_1_1_0_0_n_n.rhsIdx_val_of_single rfl j q

theorem kp_l0 (j : S512x64.Idx) (q : dot_S512x64_S64x64_S512x64_1_1_0_0_n_n.contr.Idx) :
    (dot_S512x64_S64x64_S512x64_1_1_0_0_n_n.lhsIdx j q 0).val = (j 0).val := by
  unfold DotDims.lhsIdx
  rw [dif_neg (show ¬(0 : Fin S512x64.rank) ∈ dot_S512x64_S64x64_S512x64_1_1_0_0_n_n.lhsBatch by decide), dif_pos (show (0 : Fin S512x64.rank) ∈ dot_S512x64_S64x64_S512x64_1_1_0_0_n_n.lhsNonContracting by decide)]
  rfl
theorem kp_l1 (j : S512x64.Idx) (q : dot_S512x64_S64x64_S512x64_1_1_0_0_n_n.contr.Idx) :
    (dot_S512x64_S64x64_S512x64_1_1_0_0_n_n.lhsIdx j q 1).val = (q ⟨0, by decide⟩).val :=
  dot_S512x64_S64x64_S512x64_1_1_0_0_n_n.lhsIdx_val_of_single rfl j q
theorem kp_r0 (j : S512x64.Idx) (q : dot_S512x64_S64x64_S512x64_1_1_0_0_n_n.contr.Idx) :
    (dot_S512x64_S64x64_S512x64_1_1_0_0_n_n.rhsIdx j q 0).val = (j 1).val := by
  unfold DotDims.rhsIdx
  rw [dif_neg (show ¬(0 : Fin S64x64.rank) ∈ dot_S512x64_S64x64_S512x64_1_1_0_0_n_n.rhsBatch by decide), dif_pos (show (0 : Fin S64x64.rank) ∈ dot_S512x64_S64x64_S512x64_1_1_0_0_n_n.rhsNonContracting by decide)]
  rfl
theorem kp_r1 (j : S512x64.Idx) (q : dot_S512x64_S64x64_S512x64_1_1_0_0_n_n.contr.Idx) :
    (dot_S512x64_S64x64_S512x64_1_1_0_0_n_n.rhsIdx j q 1).val = (q ⟨0, by decide⟩).val :=
  dot_S512x64_S64x64_S512x64_1_1_0_0_n_n.rhsIdx_val_of_single rfl j q

theorem lg_l0 (j : S8x200x64.Idx) (q : dot_S8x200x64_S8x64x64_S8x200x64_2_2_1_1_0_0.contr.Idx) :
    (dot_S8x200x64_S8x64x64_S8x200x64_2_2_1_1_0_0.lhsIdx j q 0).val = (j 0).val := by
  unfold DotDims.lhsIdx
  rw [dif_pos (show (0 : Fin S8x200x64.rank) ∈ dot_S8x200x64_S8x64x64_S8x200x64_2_2_1_1_0_0.lhsBatch by decide)]
  rfl
theorem lg_l1 (j : S8x200x64.Idx) (q : dot_S8x200x64_S8x64x64_S8x200x64_2_2_1_1_0_0.contr.Idx) :
    (dot_S8x200x64_S8x64x64_S8x200x64_2_2_1_1_0_0.lhsIdx j q 1).val = (j 1).val := by
  unfold DotDims.lhsIdx
  rw [dif_neg (show ¬(1 : Fin S8x200x64.rank) ∈ dot_S8x200x64_S8x64x64_S8x200x64_2_2_1_1_0_0.lhsBatch by decide), dif_pos (show (1 : Fin S8x200x64.rank) ∈ dot_S8x200x64_S8x64x64_S8x200x64_2_2_1_1_0_0.lhsNonContracting by decide)]
  rfl
theorem lg_l2 (j : S8x200x64.Idx) (q : dot_S8x200x64_S8x64x64_S8x200x64_2_2_1_1_0_0.contr.Idx) :
    (dot_S8x200x64_S8x64x64_S8x200x64_2_2_1_1_0_0.lhsIdx j q 2).val = (q ⟨0, by decide⟩).val :=
  dot_S8x200x64_S8x64x64_S8x200x64_2_2_1_1_0_0.lhsIdx_val_of_single rfl j q
theorem lg_r0 (j : S8x200x64.Idx) (q : dot_S8x200x64_S8x64x64_S8x200x64_2_2_1_1_0_0.contr.Idx) :
    (dot_S8x200x64_S8x64x64_S8x200x64_2_2_1_1_0_0.rhsIdx j q 0).val = (j 0).val := by
  unfold DotDims.rhsIdx
  rw [dif_pos (show (0 : Fin S8x64x64.rank) ∈ dot_S8x200x64_S8x64x64_S8x200x64_2_2_1_1_0_0.rhsBatch by decide)]
  rfl
theorem lg_r1 (j : S8x200x64.Idx) (q : dot_S8x200x64_S8x64x64_S8x200x64_2_2_1_1_0_0.contr.Idx) :
    (dot_S8x200x64_S8x64x64_S8x200x64_2_2_1_1_0_0.rhsIdx j q 1).val = (j 2).val := by
  unfold DotDims.rhsIdx
  rw [dif_neg (show ¬(1 : Fin S8x64x64.rank) ∈ dot_S8x200x64_S8x64x64_S8x200x64_2_2_1_1_0_0.rhsBatch by decide), dif_pos (show (1 : Fin S8x64x64.rank) ∈ dot_S8x200x64_S8x64x64_S8x200x64_2_2_1_1_0_0.rhsNonContracting by decide)]
  rfl
theorem lg_r2 (j : S8x200x64.Idx) (q : dot_S8x200x64_S8x64x64_S8x200x64_2_2_1_1_0_0.contr.Idx) :
    (dot_S8x200x64_S8x64x64_S8x200x64_2_2_1_1_0_0.rhsIdx j q 2).val = (q ⟨0, by decide⟩).val :=
  dot_S8x200x64_S8x64x64_S8x200x64_2_2_1_1_0_0.rhsIdx_val_of_single rfl j q

/-! ## The body's stages, named -/

variable (v0 : Vec Ideal S128x64 .f32) (v3 : Vec Ideal S64x64 .f32) (v11 : Vec Ideal S8x200x64 .f32) (v14 : Vec Ideal S8x64x64 .f32)

/-- The stacked query matrices times the stacked query-and-value weight. -/
def qvProd : FVec Ideal S1600x128 .f32 :=
  matmul dot_S1600x64_S128x64_S1600x128_1_1_0_0_n_n none
    (shapeCast S1600x64 (truncf .bf16 v11 bitsLt_bf16_f32) shapeCasts_S8x200x64_S1600x64)
    (truncf .bf16 (shapeCast S128x64 v0 shapeCasts_S128x64_S128x64) bitsLt_bf16_f32)
    (constant S1600x128 .f32 0x00000000#32)

/-- The stacked key matrices times the key weight. -/
def kProd : FVec Ideal S512x64 .f32 :=
  matmul dot_S512x64_S64x64_S512x64_1_1_0_0_n_n none
    (shapeCast S512x64 (truncf .bf16 v14 bitsLt_bf16_f32) shapeCasts_S8x64x64_S512x64)
    (truncf .bf16 v3 bitsLt_bf16_f32)
    (constant S512x64 .f32 0x00000000#32)

/-- The products cut back into one matrix per batch entry. -/
def qv3 : FVec Ideal S8x200x128 .f32 := shapeCast S8x200x128 (qvProd v0 v11) shapeCasts_S1600x128_S8x200x128
def k3 : FVec Ideal S8x64x64 .f32 := shapeCast S8x64x64 (kProd v3 v14) shapeCasts_S512x64_S8x64x64

/-- The logits. -/
def logits : FVec Ideal S8x200x64 .f32 :=
  mulf (matmul dot_S8x200x64_S8x64x64_S8x200x64_2_2_1_1_0_0 none
      (truncf .bf16 (extractStridedSlice S8x200x64 ![0, 0, 0] (qv3 v0 v11) slices_S8x200x128_o0_0_0_S8x200x64) bitsLt_bf16_f32)
      (truncf .bf16 (k3 v3 v14) bitsLt_bf16_f32)
      (constant S8x200x64 .f32 0x00000000#32))
    (broadcast S8x200x64 (Scalar.ofBits (F := Ideal) .f32 0x3E000000#32))

/-- The logits shifted by their row maximum and exponentiated. -/
def expd : FVec Ideal S8x200x64 .f32 :=
  exp (subf (logits v0 v3 v11 v14)
    (broadcastTo S8x200x64
      (shapeCast S8x200x1 (multiReduction .maximumf [2] S8x200 (logits v0 v3 v11 v14) 0xFF800000#32 reduces_S8x200x64_S8x200 (.inl rfl) rfl) shapeCasts_S8x200_S8x200x1)
      broadcasts_S8x200x1_S8x200x64))

/-- The whole chunk result. -/
def pay : FVec Ideal S8x200x64 .f32 :=
  mulf (extractStridedSlice S8x200x64 ![0, 0, 64] (qv3 v0 v11) slices_S8x200x128_o0_0_64_S8x200x64)
    (divf (expd v0 v3 v11 v14)
      (broadcastTo S8x200x64
        (shapeCast S8x200x1 (multiReduction .add [2] S8x200 (expd v0 v3 v11 v14) 0x00000000#32 reduces_S8x200x64_S8x200 (.inl rfl) rfl) shapeCasts_S8x200_S8x200x1)
        broadcasts_S8x200x1_S8x200x64))

/-- The printed payload is these stages composed. -/
theorem pay_eq : k0_pay1 (F := Ideal) v0 v3 v11 v14 = pay v0 v3 v11 v14 := rfl

/-! ## The stages at an index -/

/-- Row `b · 200 + n`, lane `c` of the first product: query row `(b, n)` against row `c` of the stacked weight. -/
theorem qvProd_apply (b : Fin 8) (n : Fin 200) (c : Fin 128) (r : Fin 1600) (hr : r.val = b.val * 200 + n.val) :
    qvProd v0 v11 (ix2 r c) = ∑ f : Fin 64, v11 (ix3 b n f) * v0 (ix2 c f) := by
  unfold qvProd
  refine (matmul_zero_rows_apply dot_S1600x64_S128x64_S1600x128_1_1_0_0_n_n rfl rfl qv_l0 qv_l1 qv_r0 qv_r1 none _ _ r c).trans ?_
  refine Finset.sum_congr rfl fun f _ => ?_
  rw [truncf_apply, shapeCast_self, shapeCast_abc_nc_apply _ _ b n f r hr, truncf_apply]

theorem qv3_apply (b : Fin 8) (n : Fin 200) (c : Fin 128) :
    qv3 v0 v11 (ix3 b n c) = ∑ f : Fin 64, v11 (ix3 b n f) * v0 (ix2 c f) := by
  unfold qv3
  have hlt : b.val * 200 + n.val < 1600 := by have := b.isLt; have := n.isLt; omega
  refine (shapeCast_nc_abc_apply _ _ b n c ⟨b.val * 200 + n.val, hlt⟩ rfl).trans ?_
  exact qvProd_apply v0 v11 b n c _ rfl

theorem kProd_apply (b : Fin 8) (m : Fin 64) (c : Fin 64) (r : Fin 512) (hr : r.val = b.val * 64 + m.val) :
    kProd v3 v14 (ix2 r c) = ∑ f : Fin 64, v14 (ix3 b m f) * v3 (ix2 c f) := by
  unfold kProd
  refine (matmul_zero_rows_apply dot_S512x64_S64x64_S512x64_1_1_0_0_n_n rfl rfl kp_l0 kp_l1 kp_r0 kp_r1 none _ _ r c).trans ?_
  refine Finset.sum_congr rfl fun f _ => ?_
  rw [truncf_apply, shapeCast_abc_nc_apply _ _ b m f r hr, truncf_apply]

theorem k3_apply (b : Fin 8) (m : Fin 64) (c : Fin 64) :
    k3 v3 v14 (ix3 b m c) = ∑ f : Fin 64, v14 (ix3 b m f) * v3 (ix2 c f) := by
  unfold k3
  have hlt : b.val * 64 + m.val < 512 := by have := b.isLt; have := m.isLt; omega
  refine (shapeCast_nc_abc_apply _ _ b m c ⟨b.val * 64 + m.val, hlt⟩ rfl).trans ?_
  exact kProd_apply v3 v14 b m c _ rfl

/-- Lane `h` of the stacked weight's upper half, as a lane of the whole. -/
abbrev lo (h : Fin 64) : Fin 128 := ⟨h.val, by have := h.isLt; omega⟩
/-- Lane `h` of its lower half. -/
abbrev hi (h : Fin 64) : Fin 128 := ⟨64 + h.val, by have := h.isLt; omega⟩

/-- The entry's query row, key matrix and the three weights, as the specification takes them. -/
abbrev qRow (b : Fin 8) (n : Fin 200) : Fin 64 → EReal := fun e => v11 (ix3 b n e)
abbrev kMat (b : Fin 8) : Fin 64 → Fin 64 → EReal := fun m e => v14 (ix3 b m e)
abbrev wQ : Fin 64 → Fin 64 → EReal := fun h e => v0 (ix2 (lo h) e)
abbrev wV : Fin 64 → Fin 64 → EReal := fun h e => v0 (ix2 (hi h) e)
abbrev wK : Fin 64 → Fin 64 → EReal := fun h e => v3 (ix2 h e)

theorem logits_apply (b : Fin 8) (n : Fin 200) (m : Fin 64) :
    logits v0 v3 v11 v14 (ix3 b n m) = logit (qRow v11 b n) (kMat v14 b) (wQ v0) (wK v3) m := by
  unfold logits
  rw [mulf_apply, broadcast_apply]
  refine congrArg (· * _) ?_
  refine (batchMatmul_zero_rows_apply dot_S8x200x64_S8x64x64_S8x200x64_2_2_1_1_0_0 rfl rfl lg_l0 lg_l1 lg_l2 lg_r0 lg_r1 lg_r2 none _ _ b n m).trans ?_
  refine Finset.sum_congr rfl fun f _ => ?_
  rw [truncf_apply, truncf_apply, laneSlice_apply _ _ b n f (lo f) (by show f.val = 0 + f.val; omega), qv3_apply, k3_apply]
  rfl

theorem rowMax_apply (b : Fin 8) (n : Fin 200) (h : Fin 64) :
    broadcastTo S8x200x64
      (shapeCast S8x200x1 (multiReduction .maximumf [2] S8x200 (logits v0 v3 v11 v14) 0xFF800000#32 reduces_S8x200x64_S8x200 (.inl rfl) rfl) shapeCasts_S8x200_S8x200x1)
      broadcasts_S8x200x1_S8x200x64 (ix3 b n h)
    = rowMax (logit (qRow v11 b n) (kMat v14 b) (wQ v0) (wK v3)) := by
  refine (broadcastTo_ab1_abc_apply _ _ b n h).trans ?_
  refine (shapeCast_ab_ab1_apply _ _ b n (0 : Fin 1)).trans ?_
  refine (laneMax_apply _ _ _ _ b n).trans ?_
  unfold rowMax
  exact congrArg (fun f => (Finset.univ : Finset (Fin 64)).fold max (Ideal.ofBits .f32 0xFF800000#32) f)
    (funext fun d => logits_apply v0 v3 v11 v14 b n d)

theorem expd_apply (b : Fin 8) (n : Fin 200) (m : Fin 64) :
    expd v0 v3 v11 v14 (ix3 b n m)
      = Ideal.exp (logit (qRow v11 b n) (kMat v14 b) (wQ v0) (wK v3) m - rowMax (logit (qRow v11 b n) (kMat v14 b) (wQ v0) (wK v3))) := by
  unfold expd
  show Ideal.exp (logits v0 v3 v11 v14 (ix3 b n m) - _) = _
  rw [logits_apply, rowMax_apply]

/-- THE PAYLOAD AT AN ELEMENT: entry `b`, query row `n`, lane `h` of the chunk's result is the gated attention of
    that row. -/
theorem pay_apply (b : Fin 8) (n : Fin 200) (h : Fin 64) :
    k0_pay1 (F := Ideal) v0 v3 v11 v14 (ix3 b n h)
      = gated (qRow v11 b n) (kMat v14 b) (wQ v0) (wK v3) (wV v0) h := by
  rw [pay_eq]
  unfold pay
  rw [mulf_apply, divf_apply, laneSlice_apply _ _ b n h (hi h) rfl, qv3_apply, expd_apply]
  unfold gated
  refine congrArg (fun z => _ * Ideal.div _ z) ?_
  refine (broadcastTo_ab1_abc_apply _ _ b n h).trans ?_
  refine (shapeCast_ab_ab1_apply _ _ b n (0 : Fin 1)).trans ?_
  refine (laneSum_apply _ _ _ _ b n).trans ?_
  exact Finset.sum_congr rfl fun d _ => expd_apply v0 v3 v11 v14 b n d

end Cert.KernelIdeal.Payload

end
-- ==== Proof.KernelArray.lean ====
/-
  From blocks to the whole array. Grid point `t` stages batch entries `64t … 64t+63` of the query and of the key
  array, the whole stacked weight and the whole key weight, and writes back entries `64t … 64t+63` of the result.
  The stacked weight was written before the call by concatenating the query weight over the value weight. What the
  body leaves in its output block (`Chunks.blockOut`) is, element by element, the whole-array function
  `Attn.result` of the argument arrays at the block's place in the array; the 64 blocks tile the 4096 entries, so the
  result array ends holding `Attn.result`.
-/
import proofs.«119425_j17239998726507_2_alg».proof.Proof.Gen.KernelIdeal.Value
import proofs.«119425_j17239998726507_2_alg».proof.Proof.BlockPieces
import proofs.«119425_j17239998726507_2_alg».proof.Proof.Payload
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)
open Cert.Attn Cert.KernelIdeal.Chunks Cert.KernelIdeal.Payload

/-- Row `r` of block `T` is batch entry `64 T + r`. -/
abbrev gRow (T : Fin 64) (r : Fin 64) : Fin 4096 := ⟨T.val * 64 + r.val, by have := T.isLt; have := r.isLt; omega⟩

/-- Row `b` of chunk `r / 8` of the query block is block row `r`, when `b = r % 8`. -/
theorem rowsQ_idx (y : S64x200x64.Idx) (n : Fin 200) (e : Fin 64) :
    (rowsQ (chunkOf y)).idx (ix3 (⟨(y 0).val % 8, Nat.mod_lt _ (by decide)⟩ : Fin 8) n e) = ix3 (y 0 : Fin 64) n e := by
  funext a
  apply Fin.ext
  match a with
  | ⟨0, _⟩ =>
    show k0_off1 (chunkOf y) 0 + 1 * ((y 0).val % 8) = (y 0).val
    rw [k0_off1_eq (chunkOf y)]
    show 8 * ((y 0).val / 8) + 1 * ((y 0).val % 8) = (y 0).val
    omega
  | ⟨1, _⟩ =>
    show k0_off1 (chunkOf y) 1 + 1 * n.val = n.val
    rw [k0_off1_eq (chunkOf y)]
    show 0 + 1 * n.val = n.val
    omega
  | ⟨2, _⟩ =>
    show k0_off1 (chunkOf y) 2 + 1 * e.val = e.val
    rw [k0_off1_eq (chunkOf y)]
    show 0 + 1 * e.val = e.val
    omega

/-- The same for the key block. -/
theorem rowsK_idx (y : S64x200x64.Idx) (mm : Fin 64) (e : Fin 64) :
    (rowsK (chunkOf y)).idx (ix3 (⟨(y 0).val % 8, Nat.mod_lt _ (by decide)⟩ : Fin 8) mm e) = ix3 (y 0 : Fin 64) mm e := by
  funext a
  apply Fin.ext
  match a with
  | ⟨0, _⟩ =>
    show k0_off2 (chunkOf y) 0 + 1 * ((y 0).val % 8) = (y 0).val
    rw [k0_off2_eq (chunkOf y)]
    show 8 * ((y 0).val / 8) + 1 * ((y 0).val % 8) = (y 0).val
    omega
  | ⟨1, _⟩ =>
    show k0_off2 (chunkOf y) 1 + 1 * mm.val = mm.val
    rw [k0_off2_eq (chunkOf y)]
    show 0 + 1 * mm.val = mm.val
    omega
  | ⟨2, _⟩ =>
    show k0_off2 (chunkOf y) 2 + 1 * e.val = e.val
    rw [k0_off2_eq (chunkOf y)]
    show 0 + 1 * e.val = e.val
    omega

/-- ONE BLOCK: if the staged blocks are block `T` of the query and key arrays, the stacked weight holds the query weight
    over the value weight, and the key weight is staged whole, then what the body leaves at block index `y` is the whole
    result at batch entry `64 T + y₀`. -/
theorem blockOut_eq_result (a0 : S4096x200x64.Idx → EReal) (a1 : S4096x64x64.Idx → EReal) (a2 a3 a4 : S64x64.Idx → EReal)
    (x0 : Vec Ideal S64x200x64 .f32) (x1 : Vec Ideal S64x64x64 .f32) (x2 : Vec Ideal S128x64 .f32) (x3 : Vec Ideal S64x64 .f32) (T : Fin 64)
    (h0 : ∀ (r : Fin 64) (n : Fin 200) (e : Fin 64), x0 (ix3 r n e) = a0 (ix3 (gRow T r) n e))
    (h1 : ∀ (r : Fin 64) (mm : Fin 64) (e : Fin 64), x1 (ix3 r mm e) = a1 (ix3 (gRow T r) mm e))
    (h2lo : ∀ (h e : Fin 64), x2 (ix2 (lo h) e) = a2 (ix2 h e))
    (h2hi : ∀ (h e : Fin 64), x2 (ix2 (hi h) e) = a4 (ix2 h e))
    (h3 : ∀ (h e : Fin 64), x3 (ix2 h e) = a3 (ix2 h e))
    (y : S64x200x64.Idx) :
    blockOut x0 x1 x2 x3 y = result a0 a1 a2 a3 a4 (ix3 (gRow T (y 0)) (y 1 : Fin 200) (y 2 : Fin 64)) := by
  unfold blockOut chunkOut inChunk
  refine (pay_apply x2 x3 (View.ld x0 (rowsQ (chunkOf y))) (View.ld x1 (rowsK (chunkOf y)))
    (⟨(y 0).val % 8, Nat.mod_lt _ (by decide)⟩ : Fin 8) (⟨(y 1).val, (y 1).isLt⟩ : Fin 200) (⟨(y 2).val, (y 2).isLt⟩ : Fin 64)).trans ?_
  have eq : qRow (View.ld x0 (rowsQ (chunkOf y))) (⟨(y 0).val % 8, Nat.mod_lt _ (by decide)⟩ : Fin 8) (⟨(y 1).val, (y 1).isLt⟩ : Fin 200)
      = fun e => a0 (ix3 (gRow T (y 0)) (y 1 : Fin 200) e) := funext fun e => by
    show x0 ((rowsQ (chunkOf y)).idx (ix3 _ _ e)) = _
    rw [rowsQ_idx y _ e]
    exact h0 (y 0) (y 1) e
  have ek : kMat (View.ld x1 (rowsK (chunkOf y))) (⟨(y 0).val % 8, Nat.mod_lt _ (by decide)⟩ : Fin 8)
      = fun mm e => a1 (ix3 (gRow T (y 0)) mm e) := funext fun mm => funext fun e => by
    show x1 ((rowsK (chunkOf y)).idx (ix3 _ mm e)) = _
    rw [rowsK_idx y mm e]
    exact h1 (y 0) mm e
  have ewq : wQ x2 = fun h e => a2 (ix2 h e) := funext fun h => funext fun e => h2lo h e
  have ewk : wK x3 = fun h e => a3 (ix2 h e) := funext fun h => funext fun e => h3 h e
  have ewv : wV x2 = fun h e => a4 (ix2 h e) := funext fun h => funext fun e => h2hi h e
  rw [eq, ek, ewq, ewk, ewv]
  rfl

section Run

variable (m : (ℓ : Loc nD τ sig) → Buf (Elt Ideal) ℓ) (ρ : Dev nD → PrngReg)

/-- The printed index maps over the grid: the query, key and result windows move one block per point along the batch
    axis; the two weight windows stay. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The stacked weight as the call finds it: the query weight over the value weight. -/
theorem stacked_eq (c : Dev nD) :
    (V m c main_v0 : S128x64.Idx → EReal)
      = concatenate S128x64 0 [⟨S64x64, m ((c : Thread nD τ).loc main_arg2)⟩, ⟨S64x64, m ((c : Thread nD τ).loc main_arg4)⟩] concatenates_S64x64_S64x64_S128x64_d0 := by
  dsimp only [Gen.V, Gen.hostOps0]
  after_results

/-- The whole result of the argument arrays as launched. -/
abbrev resultOf (c : Dev nD) : S4096x200x64.Idx → EReal :=
  result (m ((c : Thread nD τ).loc main_arg0)) (m ((c : Thread nD τ).loc main_arg1)) (m ((c : Thread nD τ).loc main_arg2))
    (m ((c : Thread nD τ).loc main_arg3)) (m ((c : Thread nD τ).loc main_arg4))

/-- WHAT POINT `t` WRITES BACK is block `t` of the whole result. -/
theorem flushed_eq (c : Dev nD) (t : Fin cfg0.N) :
    (dats m 0 c).flushed 4 t = ((cfg0.win 4).blk t).view.read (Elt Ideal) (resultOf m c) := by
  rw [Cert.KernelIdeal.Value.flushed4]
  obtain ⟨e00, e01, e02, e10, e11, e12, e20, e21, e30, e31, e40, e41, e42⟩ := idx_facts t
  have hN : cfg0.N = 64 := N_0
  have htl : t.val < 64 := hN ▸ t.isLt
  funext j
  show outsAt0 m c t j = resultOf m c (((cfg0.win 4).blk t).view.emb j)
  unfold outsAt0
  refine (congrFun (out_eq c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) (iblk m c 3 t)) j).trans ?_
  refine (blockOut_eq_result (m ((c : Thread nD τ).loc main_arg0)) (m ((c : Thread nD τ).loc main_arg1)) (m ((c : Thread nD τ).loc main_arg2))
    (m ((c : Thread nD τ).loc main_arg3)) (m ((c : Thread nD τ).loc main_arg4))
    (iblk m c 0 t) (iblk m c 1 t) (iblk m c 2 t) (iblk m c 3 t) ⟨t.val, htl⟩ ?h0 ?h1 ?h2lo ?h2hi ?h3 j).trans ?fin
  case h0 =>
    intro r n e
    show V m c main_arg0 (((cfg0.win 0).blk t).view.emb (ix3 r n e)) = _
    rw [V_main_arg0]
    refine congrArg _ (funext fun a => Fin.ext ?_)
    match a with
    | ⟨0, _⟩ => show win0_0.index t (0 : Fin 3) * 64 + 1 * r.val = t.val * 64 + r.val; rw [e00]; omega
    | ⟨1, _⟩ => show win0_0.index t (1 : Fin 3) * 200 + 1 * n.val = n.val; rw [e01]; omega
    | ⟨2, _⟩ => show win0_0.index t (2 : Fin 3) * 64 + 1 * e.val = e.val; rw [e02]; omega
  case h1 =>
    intro r mm e
    show V m c main_arg1 (((cfg0.win 1).blk t).view.emb (ix3 r mm e)) = _
    rw [V_main_arg1]
    refine congrArg _ (funext fun a => Fin.ext ?_)
    match a with
    | ⟨0, _⟩ => show win0_1.index t (0 : Fin 3) * 64 + 1 * r.val = t.val * 64 + r.val; rw [e10]; omega
    | ⟨1, _⟩ => show win0_1.index t (1 : Fin 3) * 64 + 1 * mm.val = mm.val; rw [e11]; omega
    | ⟨2, _⟩ => show win0_1.index t (2 : Fin 3) * 64 + 1 * e.val = e.val; rw [e12]; omega
  case h2lo =>
    intro h e
    show V m c main_v0 (((cfg0.win 2).blk t).view.emb (ix2 (lo h) e)) = _
    have ei : ((cfg0.win 2).blk t).view.emb (ix2 (lo h) e) = ix2 (lo h) e := funext fun a => Fin.ext (by
      match a with
      | ⟨0, _⟩ => show win0_2.index t (0 : Fin 2) * 128 + 1 * h.val = h.val; rw [e20]; omega
      | ⟨1, _⟩ => show win0_2.index t (1 : Fin 2) * 64 + 1 * e.val = e.val; rw [e21]; omega)
    rw [ei, stacked_eq]
    exact concatenate_pair_apply_left (s₁ := S64x64) (s₂ := S64x64) (0 : Fin 2) _ _ _ (ix2 (lo h) e) rfl (ix2 h e) (fun b => by
      match b with
      | ⟨0, _⟩ => rfl
      | ⟨1, _⟩ => rfl)
  case h2hi =>
    intro h e
    show V m c main_v0 (((cfg0.win 2).blk t).view.emb (ix2 (hi h) e)) = _
    have ei : ((cfg0.win 2).blk t).view.emb (ix2 (hi h) e) = ix2 (hi h) e := funext fun a => Fin.ext (by
      match a with
      | ⟨0, _⟩ => show win0_2.index t (0 : Fin 2) * 128 + 1 * (64 + h.val) = 64 + h.val; rw [e20]; omega
      | ⟨1, _⟩ => show win0_2.index t (1 : Fin 2) * 64 + 1 * e.val = e.val; rw [e21]; omega)
    rw [ei, stacked_eq]
    exact concatenate_pair_apply_right (s₁ := S64x64) (s₂ := S64x64) (0 : Fin 2) _ _ _ (ix2 (hi h) e) rfl rfl (ix2 h e) (fun b hb => by
      match b with
      | ⟨0, _⟩ => exact absurd rfl hb
      | ⟨1, _⟩ => rfl) (by show h.val + 64 = 64 + h.val; omega)
  case h3 =>
    intro h e
    show V m c main_arg3 (((cfg0.win 3).blk t).view.emb (ix2 h e)) = _
    rw [V_main_arg3]
    refine congrArg _ (funext fun a => Fin.ext ?_)
    match a with
    | ⟨0, _⟩ => show win0_3.index t (0 : Fin 2) * 64 + 1 * h.val = h.val; rw [e30]; omega
    | ⟨1, _⟩ => show win0_3.index t (1 : Fin 2) * 64 + 1 * e.val = e.val; rw [e31]; omega
  case fin =>
    refine congrArg (resultOf m c) (funext fun a => Fin.ext ?_)
    match a with
    | ⟨0, _⟩ => show t.val * 64 + (j 0).val = win0_4.index t (0 : Fin 3) * 64 + 1 * (j 0).val; rw [e40]; omega
    | ⟨1, _⟩ => show (j 1).val = win0_4.index t (1 : Fin 3) * 200 + 1 * (j 1).val; rw [e41]; omega
    | ⟨2, _⟩ => show (j 2).val = win0_4.index t (2 : Fin 3) * 64 + 1 * (j 2).val; rw [e42]; omega

/-- An index of the result array is in point `t`'s block iff each coordinate is in the block's range on its axis. -/
theorem mem_blk (t : Fin cfg0.N) (i : S4096x200x64.Idx) :
    i ∈ ((cfg0.win 4).blk t).view.set ↔ ∀ a : Fin 3, win0_4.index t a * S64x200x64.size a ≤ (i a).val ∧ (i a).val < win0_4.index t a * S64x200x64.size a + S64x200x64.size a := by
  show i ∈ ((View.whole main_v1).slice (win0_4.rect t)).set ↔ _
  rw [View.set_slice_whole, Rect.mem_set_unit]
  exact Iff.rfl

/-- THE RESULT ARRAY after the run: batch entry `B` lies in the block of point `B / 64`, so the 64 blocks cover the array. -/
theorem final (c : Dev nD) : (dats m 0 c).arrAt 4 cfg0.N = resultOf m c :=
  (dats m 0 c).arrAt_eq_of_cover 4 (resultOf m c) (fun t _ => flushed_eq m c t) fun i => by
    have hN : cfg0.N = 64 := N_0
    have hi0 : (i 0).val < 4096 := (i 0).isLt
    have hi1 : (i 1).val < 200 := (i 1).isLt
    have hi2 : (i 2).val < 64 := (i 2).isLt
    refine ⟨⟨(i 0).val / 64, by rw [hN]; omega⟩, flush0_4 _, ?_⟩
    rw [mem_blk]
    obtain ⟨-, -, -, -, -, -, -, -, -, -, e40, e41, e42⟩ := idx_facts ⟨(i 0).val / 64, by rw [hN]; omega⟩
    intro a
    match a with
    | ⟨0, _⟩ =>
      show win0_4.index _ (0 : Fin 3) * 64 ≤ (i 0).val ∧ (i 0).val < win0_4.index _ (0 : Fin 3) * 64 + 64
      rw [e40]; show (i 0).val / 64 * 64 ≤ (i 0).val ∧ (i 0).val < (i 0).val / 64 * 64 + 64; omega
    | ⟨1, _⟩ =>
      show win0_4.index _ (1 : Fin 3) * 200 ≤ (i 1).val ∧ (i 1).val < win0_4.index _ (1 : Fin 3) * 200 + 200
      rw [e41]; omega
    | ⟨2, _⟩ =>
      show win0_4.index _ (2 : Fin 3) * 64 ≤ (i 2).val ∧ (i 2).val < win0_4.index _ (2 : Fin 3) * 64 + 64
      rw [e42]; omega

/-- THE KERNEL'S RUN, READ: every weakly fair execution terminates with the result array holding `Attn.result` of the
    argument arrays, and the argument arrays unchanged. -/
theorem run : θ_run defs (onTc (τ := τ) (main (F := Ideal))) ⟨m, fun _ => 0, ρ⟩ fun r => ∀ c : Dev nD,
      r.2.mem ((c : Thread nD τ).loc main_v1) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Run

end Cert.KernelIdeal.Whole

end
-- ==== Proof.RefIsSpec.lean ====
/-
  The reference's result at one element. The reference projects every query row by the query weight and by the value
  weight and every key row by the key weight (three contractions over the 64 features), takes the inner product of
  query and key projections inside each batch entry, scales by 1/8, subtracts the row maximum — a fold of `max` from
  minus infinity followed by one more `max` with minus infinity, which changes nothing —, exponentiates, divides by
  the row sum (taken from zero) and multiplies by the value projection. At batch entry `B`, query row `n`, lane `h`
  that is `Attn.gated` of row `n` of query matrix `B`, key matrix `B` and the three weights.
-/
import proofs.«119425_j17239998726507_2_alg».proof.Proof.Gen.ReferenceIdeal.Read
import proofs.«119425_j17239998726507_2_alg».proof.Proof.Spec
import proofs.«119425_j17239998726507_2_alg».proof.Proof.LibHeadLayout

noncomputable section

namespace Cert.ReferenceIdeal.RefValue

open Cert.ReferenceIdeal Cert.ReferenceIdeal.Gen Cert.ReferenceIdeal.Read Idealize.ShloMosaic Idealize.ShloMosaic.ValueIdx
open Cert.Attn Cert.HeadLayout

variable (x0 : (⟨S4096x200x64, .f32⟩ : BufTy).Contents (Elt Ideal)) (x1 : (⟨S4096x64x64, .f32⟩ : BufTy).Contents (Elt Ideal))
  (x2 x3 x4 : (⟨S64x64, .f32⟩ : BufTy).Contents (Elt Ideal))

/-- Row `n` of query matrix `B`, key matrix `B`, and a weight, as the specification takes them. -/
abbrev qRow (B : Fin 4096) (n : Fin 200) : Fin 64 → EReal := fun e => x0 (ix3 B n e)
abbrev kMat (B : Fin 4096) : Fin 64 → Fin 64 → EReal := fun m e => x1 (ix3 B m e)
abbrev wMat (w : (⟨S64x64, .f32⟩ : BufTy).Contents (Elt Ideal)) : Fin 64 → Fin 64 → EReal := fun h e => w (ix2 h e)

/-- The query projection (and, with the value weight for `w`, the value projection) at `(B, n, k)`. -/
theorem projQ_apply (w : (⟨S64x64, .f32⟩ : BufTy).Contents (Elt Ideal)) (B : Fin 4096) (n : Fin 200) (k : Fin 64) :
    val_main_v0 (F := Ideal) x0 w (ix3 B n k) = proj (qRow x0 B n) (wMat w) k := by
  rw [val_main_v0_apply]
  unfold proj
  refine Finset.sum_congr rfl fun e _ => ?_
  have el : lidx_main_v0 (ix3 B n k) e = ix3 B n e := funext fun a => by match a with | ⟨0, _⟩ => rfl | ⟨1, _⟩ => rfl | ⟨2, _⟩ => rfl
  have er : ridx_main_v0 (ix3 B n k) e = ix2 k e := funext fun a => by match a with | ⟨0, _⟩ => rfl | ⟨1, _⟩ => rfl
  rw [el, er]

theorem projV_apply (B : Fin 4096) (n : Fin 200) (k : Fin 64) :
    val_main_v2 (F := Ideal) x0 x4 (ix3 B n k) = proj (qRow x0 B n) (wMat x4) k :=
  projQ_apply x0 x4 B n k

/-- The key projection at `(B, m, k)`. -/
theorem projK_apply (B : Fin 4096) (m : Fin 64) (k : Fin 64) :
    val_main_v1 (F := Ideal) x1 x3 (ix3 B m k) = proj (kMat x1 B m) (wMat x3) k := by
  rw [val_main_v1_apply]
  unfold proj
  refine Finset.sum_congr rfl fun e _ => ?_
  have el : lidx_main_v1 (ix3 B m k) e = ix3 B m e := funext fun a => by match a with | ⟨0, _⟩ => rfl | ⟨1, _⟩ => rfl | ⟨2, _⟩ => rfl
  have er : ridx_main_v1 (ix3 B m k) e = ix2 k e := funext fun a => by match a with | ⟨0, _⟩ => rfl | ⟨1, _⟩ => rfl
  rw [el, er]

/-- The scaled logits at `(B, n, m)`. -/
theorem logits_apply (B : Fin 4096) (n : Fin 200) (m : Fin 64) :
    val_main_v5 (F := Ideal) x0 x1 x2 x3 (ix3 B n m) = logit (qRow x0 B n) (kMat x1 B) (wMat x2) (wMat x3) m := by
  rw [val_main_v5_apply, val_main_v3_apply, val_main_v4_apply, val_main_cst_apply]
  show (∑ k : Fin 64, _) * Ideal.ofBits .f32 0x3E000000#32 = _
  unfold logit
  refine congrArg (· * _) (Finset.sum_congr rfl fun k _ => ?_)
  have el : lidx_main_v3 (ix3 B n m) k = ix3 B n k := funext fun a => by match a with | ⟨0, _⟩ => rfl | ⟨1, _⟩ => rfl | ⟨2, _⟩ => rfl
  have er : ridx_main_v3 (ix3 B n m) k = ix3 B m k := funext fun a => by match a with | ⟨0, _⟩ => rfl | ⟨1, _⟩ => rfl | ⟨2, _⟩ => rfl
  rw [el, er, projQ_apply, projK_apply]

/-- The row maximum at `(B, n)`. -/
theorem rowMax_apply (B : Fin 4096) (n : Fin 200) :
    val_main_v8 (F := Ideal) x0 x1 x2 x3 (ix2 B n) = rowMax (logit (qRow x0 B n) (kMat x1 B) (wMat x2) (wMat x3)) := by
  rw [val_main_v8_apply, val_main_v7_apply, val_main_cst_1_apply]
  unfold val_main_v6
  refine (congrArg (FloatOps.maximumf (FloatOps.ofBits (F := Ideal) .f32 0xFF800000#32))
    (hostLaneMax_apply _ _ reducesTo_S4096x200x64_S4096x200_d2 (by decide) h_S_ B n)).trans ?_
  show max (Ideal.ofBits .f32 0xFF800000#32) ((Finset.univ : Finset (Fin 64)).fold max (Ideal.ofBits .f32 0xFF800000#32) _) = _
  rw [max_start_fold]
  unfold rowMax
  exact congrArg (fun f => (Finset.univ : Finset (Fin 64)).fold max (Ideal.ofBits .f32 0xFF800000#32) f)
    (funext fun d => logits_apply x0 x1 x2 x3 B n d)

/-- The shifted, exponentiated logits at `(B, n, m)`. -/
theorem expd_apply (B : Fin 4096) (n : Fin 200) (m : Fin 64) :
    val_main_v12 (F := Ideal) x0 x1 x2 x3 (ix3 B n m)
      = Ideal.exp (logit (qRow x0 B n) (kMat x1 B) (wMat x2) (wMat x3) m - rowMax (logit (qRow x0 B n) (kMat x1 B) (wMat x2) (wMat x3))) := by
  rw [val_main_v12_apply, val_main_v11_apply, val_main_v10_apply, val_main_v9_apply]
  have e1 : idx_main_v9 (idx_main_v10 (ix3 B n m)) = ix2 B n := funext fun a => by match a with | ⟨0, _⟩ => rfl | ⟨1, _⟩ => rfl
  rw [e1, rowMax_apply, logits_apply]
  rfl

/-- THE REFERENCE AT AN ELEMENT. -/
theorem result_apply (B : Fin 4096) (n : Fin 200) (h : Fin 64) :
    val_main_v17 (F := Ideal) x0 x1 x2 x3 x4 (ix3 B n h)
      = gated (qRow x0 B n) (kMat x1 B) (wMat x2) (wMat x3) (wMat x4) h := by
  rw [val_main_v17_apply, val_main_v16_apply, val_main_v15_apply, val_main_v14_apply, val_main_v13_apply, val_main_cst_2_apply,
    projV_apply, expd_apply]
  have e1 : idx_main_v14 (idx_main_v15 (ix3 B n h)) = ix2 B n := funext fun a => by match a with | ⟨0, _⟩ => rfl | ⟨1, _⟩ => rfl
  rw [e1]
  unfold gated
  show _ * Ideal.div _ (Ideal.ofBits .f32 0x00000000#32 + ∑ k : Fin 64, _) = _
  rw [Ideal.ofBits_zero_f32, zero_add]
  refine congrArg (fun z => _ * Ideal.div _ z) (Finset.sum_congr rfl fun k _ => ?_)
  have e2 : idx_main_v13 (ix2 B n) k = ix3 B n k := funext fun a => by match a with | ⟨0, _⟩ => rfl | ⟨1, _⟩ => rfl | ⟨2, _⟩ => rfl
  rw [e2, expd_apply]

/-- THE REFERENCE'S RESULT ARRAY is `Attn.result` of its argument arrays. -/
theorem result_eq : val_main_v17 (F := Ideal) x0 x1 x2 x3 x4 = result x0 x1 x2 x3 x4 := by
  funext i
  obtain ⟨B, n, h, rfl⟩ : ∃ (B : Fin 4096) (n : Fin 200) (h : Fin 64), i = ix3 B n h := ⟨i 0, i 1, i 2, eq_ix3 i⟩
  exact result_apply x0 x1 x2 x3 x4 B n h

end Cert.ReferenceIdeal.RefValue

end
-- ==== Proof.lean ====
/-
  The kernel and its reference compute the same array on the extended reals.

  Both take a batch of 4096 query matrices (200 rows of 64 features), a batch of 4096 key matrices (64 rows of 64
  features) and three 64 × 64 weights. For every batch entry they project the query rows by the query weight and by
  the value weight and the key rows by the key weight, form the 200 × 64 logits as inner products of query and key
  projections scaled by 1/8, take the softmax of each row of logits, and multiply it, lane by lane, into the value
  projection (there are as many keys as lanes). `Attn.result` (Proof/Spec.lean) is that array as one function of
  the five arguments.

  The reference does this with whole-array operations; its run is read one operation at a time, and at element
  `(B, n, h)` it is `Attn.gated` of query row `(B, n)` and key matrix `B` (Proof/RefIsSpec.lean). The kernel
  stacks the query weight over the value weight, walks the batch 64 entries per grid point and 8 entries per loop
  trip, multiplies the stacked rows by the stacked weight and cuts the product back apart; its eight stores per point
  tile the output block (Proof/BlockPieces.lean), each store's element is `Attn.gated` of the same row and matrix
  (Proof/Payload.lean), and the 64 blocks tile the result array (Proof/KernelArray.lean). The two arrangements differ
  only in where an element is computed, never in the formula: sums, products, maxima and the quotient are taken over
  the same index sets in both, so no law of arithmetic beyond unfolding is needed and the finiteness of the inputs is
  not used. The format changes to bf16 inside the kernel are the identity on the extended reals; the reference's extra
  `max` with minus infinity after its row maximum changes nothing.

  The three frames: the kernel's two are the run of its pipeline, grid point by grid point, with the loop carried by
  its invariant; the reference's is its run with the result dropped. The idealization rewrote no operation, so
  `preserves` states nothing.
-/
import proofs.«119425_j17239998726507_2_alg».proof.Defs
import proofs.«119425_j17239998726507_2_alg».proof.Proof.Gen.Kernel
import proofs.«119425_j17239998726507_2_alg».proof.Proof.Gen.Kernel.Frame
import proofs.«119425_j17239998726507_2_alg».proof.Proof.Gen.KernelIdeal
import proofs.«119425_j17239998726507_2_alg».proof.Proof.Gen.KernelIdeal.Frame
import proofs.«119425_j17239998726507_2_alg».proof.Proof.Gen.KernelIdeal.Value
import proofs.«119425_j17239998726507_2_alg».proof.Proof.Gen.ReferenceIdeal
import proofs.«119425_j17239998726507_2_alg».proof.Proof.Gen.ReferenceIdeal.Run
import proofs.«119425_j17239998726507_2_alg».proof.Proof.Gen.ReferenceIdeal.Read
import proofs.«119425_j17239998726507_2_alg».proof.Proof.Gen.Pre_finite_inputs
import proofs.«119425_j17239998726507_2_alg».proof.Proof.KernelArray
import proofs.«119425_j17239998726507_2_alg».proof.Proof.RefIsSpec
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at `Attn.result` of argument arrays that agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
